-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1x64 : Shape := ⟨4, ![16, 2048, 1, 64]⟩
abbrev S16x1x2048x64 : Shape := ⟨4, ![16, 1, 2048, 64]⟩
abbrev S16x2048x64 : Shape := ⟨3, ![16, 2048, 64]⟩
abbrev S_ : Shape := ⟨0, ![]⟩

class Facts : Prop where
  bcast_S_S16x2048x1x64 : S_.BroadcastsInDim S16x2048x1x64 (![] : Fin 0 → Fin S16x2048x1x64.rank)
  reducesTo_S16x2048x1x64_S_d0_1_2_3 : S16x2048x1x64.ReducesTo [0, 1, 2, 3] S_
  h_S_ : 0 < S_.numel
  bcast_S_S16x1x2048x64 : S_.BroadcastsInDim S16x1x2048x64 (![] : Fin 0 → Fin S16x1x2048x64.rank)
  reducesTo_S16x1x2048x64_S_d0_1_2_3 : S16x1x2048x64.ReducesTo [0, 1, 2, 3] S_
  bcast_S_S16x2048x64 : S_.BroadcastsInDim S16x2048x64 (![] : Fin 0 → Fin S16x2048x64.rank)
  reducesTo_S16x2048x64_S_d0_1_2 : S16x2048x64.ReducesTo [0, 1, 2] S_

variable [Facts]

def fn {F : FTy → Type} [FloatOps F] (main_arg0 : FVec F S16x2048x1x64 .f32) (main_arg1 : FVec F S16x1x2048x64 .f32) (main_arg2 : FVec F S16x2048x64 .f32) : IVec S_ 1 :=
  let main_v0 : FVec F S16x2048x1x64 .f32 := Host.absf main_arg0
  let main_cst : FVec F S_ .f32 := constant S_ .f32 0x7F800000#32
  let main_v1 : FVec F S16x2048x1x64 .f32 := broadcastInDim S16x2048x1x64 ![] bcast_S_S16x2048x1x64 main_cst
  let main_v2 : IVec S16x2048x1x64 1 := cmpf .olt main_v0 main_v1
  let main_c : IVec S_ 1 := constantI S_ 1 1#1
  let main_v3 : IVec S_ 1 := (fun x v => Host.reduce IntOp.andi x v reducesTo_S16x2048x1x64_S_d0_1_2_3 h_S_) main_v2 main_c
  let main_v4 : FVec F S16x1x2048x64 .f32 := Host.absf main_arg1
  let main_cst_0 : FVec F S_ .f32 := constant S_ .f32 0x7F800000#32
  let main_v5 : FVec F S16x1x2048x64 .f32 := broadcastInDim S16x1x2048x64 ![] bcast_S_S16x1x2048x64 main_cst_0
  let main_v6 : IVec S16x1x2048x64 1 := cmpf .olt main_v4 main_v5
  let main_c_1 : IVec S_ 1 := constantI S_ 1 1#1
  let main_v7 : IVec S_ 1 := (fun x v => Host.reduce IntOp.andi x v reducesTo_S16x1x2048x64_S_d0_1_2_3 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x1x64 : Shape := ⟨4, ![16, 2048, 1, 64]⟩
abbrev S16x1x2048x64 : Shape := ⟨4, ![16, 1, 2048, 64]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x2048x64 : Shape := ⟨3, ![1, 2048, 64]⟩
abbrev S1x512x64 : Shape := ⟨3, ![1, 512, 64]⟩
abbrev S1x64x512 : Shape := ⟨3, ![1, 64, 512]⟩
abbrev S1x2048x512 : Shape := ⟨3, ![1, 2048, 512]⟩
abbrev S2048x64 : Shape := ⟨2, ![2048, 64]⟩
abbrev S512x64 : Shape := ⟨2, ![512, 64]⟩
abbrev S2048x512 : Shape := ⟨2, ![2048, 512]⟩
abbrev S512 : Shape := ⟨1, ![512]⟩
abbrev S1x512 : Shape := ⟨2, ![1, 512]⟩
abbrev S64x512 : Shape := ⟨2, ![64, 512]⟩

abbrev nBuf : Space → Nat
  | .hbm => 7
  | .vmem => 10
  | .smem => 0
  | _ => 0

abbrev bufTy : (tb : Table) → Fin (tcTables nBuf tb) → BufTy
  | .hbm, ⟨0, _⟩ => ⟨S16x2048x1x64, .f32⟩
  | .hbm, ⟨1, _⟩ => ⟨S16x1x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S16x64x2048, .f32⟩
  | .hbm, ⟨6, _⟩ => ⟨S16x2048x2048, .f32⟩
  | .local _ .vmem, ⟨0, _⟩ => ⟨S1x2048x64, .f32⟩
  | .local _ .vmem, ⟨1, _⟩ => ⟨S1x2048x64, .f32⟩
  | .local _ .vmem, ⟨2, _⟩ => ⟨S1x512x64, .f32⟩
  | .local _ .vmem, ⟨3, _⟩ => ⟨S1x512x64, .f32⟩
  | .local _ .vmem, ⟨4, _⟩ => ⟨S1x2048x64, .f32⟩
  | .local _ .vmem, ⟨5, _⟩ => ⟨S1x2048x64, .f32⟩
  | .local _ .vmem, ⟨6, _⟩ => ⟨S1x64x512, .f32⟩
  | .local _ .vmem, ⟨7, _⟩ => ⟨S1x64x512, .f32⟩
  | .local _ .vmem, ⟨8, _⟩ => ⟨S1x2048x512, .f32⟩
  | .local _ .vmem, ⟨9, _⟩ => ⟨S1x2048x512, .f32⟩
  | _, _ => ⟨S16x2048x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x2048x1x64_S16x2048x64 : S16x2048x1x64.ShapeCasts S16x2048x64
  shapeCasts_S16x1x2048x64_S16x2048x64 : S16x1x2048x64.ShapeCasts S16x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  reduces_S2048x512_S512 : S2048x512.Reduces [0] S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  reduces_S64x512_S512 : S64x512.Reduces [0] S512
  broadcasts_S1x512_S64x512 : S1x512.Broadcasts S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  dot_S2048x64_S512x64_S2048x512_1_1_0_0_n_n_wf : DotDims.WF S2048x64 S512x64 S2048x512 [1] [1] [0] [0] [] []
  dot_S2048x64_S2048x512_S64x512_0_0_1_1_n_n_wf : DotDims.WF S2048x64 S2048x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S16x2048x64.size a
  hwx0_1 : ∀ i : grid0.Coords, EltTy.bits .f32 = 32 ∨ (Rect.block (s := S16x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S16x64x2048.size a
  hwx0_3 : ∀ i : grid0.Coords, EltTy.bits .f32 = 32 ∨ (Rect.block (s := S16x64x2048) S1x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S16x2048x2048.size a
  hwx0_4 : ∀ i : grid0.Coords, EltTy.bits .f32 = 32 ∨ (Rect.block (s := S16x2048x2048) S1x2048x512.size (cc0_transform_4 i) (hinb0_4 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x64_S2048x512_S64x512_0_0_1_1_n_n : DotDims S2048x64 S2048x512 S64x512 where
  lhsContracting := [0]
  rhsContracting := [0]
  lhsNonContracting := [1]
  rhsNonContracting := [1]
  lhsBatch := []
  rhsBatch := []
  wf := dot_S2048x64_S2048x512_S64x512_0_0_1_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1x64 : Shape := ⟨4, ![16, 2048, 1, 64]⟩
abbrev S16x1x2048x64 : Shape := ⟨4, ![16, 1, 2048, 64]⟩
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩
abbrev S32768x64 : Shape := ⟨2, ![32768, 64]⟩
abbrev S32768 : Shape := ⟨1, ![32768]⟩
abbrev S32768x1 : Shape := ⟨2, ![32768, 1]⟩
abbrev S16x64x2048 : Shape := ⟨3, ![16, 64, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x1x64, .f32⟩
  | .hbm, ⟨1, _⟩ => ⟨S16x1x2048x64, .f32⟩
  | .hbm, ⟨2, _⟩ => ⟨S16x2048x64, .f32⟩
  | .hbm, ⟨3, _⟩ => ⟨S16x2048x64, .f32⟩
  | .hbm, ⟨4, _⟩ => ⟨S16x2048x64, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x1x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x1x2048, .f32⟩
  | .hbm, ⟨21, _⟩ => ⟨S16x2048x2048, .f32⟩
  | .hbm, ⟨22, _⟩ => ⟨S16x2048x2048, .f32⟩
  | .hbm, ⟨23, _⟩ => ⟨S16x2048x64, .f32⟩
  | .hbm, ⟨24, _⟩ => ⟨S32768x64, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .i32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x64, .f32⟩
  | .hbm, ⟨39, _⟩ => ⟨S32768x64, .f32⟩
  | .hbm, ⟨40, _⟩ => ⟨S32768x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x64, .f32⟩
  | .hbm, ⟨57, _⟩ => ⟨S32768x64, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x64, .f32⟩
  | .hbm, ⟨62, _⟩ => ⟨S32768x64, .f32⟩
  | .hbm, ⟨63, _⟩ => ⟨S16x2048x64, .f32⟩
  | .hbm, ⟨64, _⟩ => ⟨S16x64x2048, .f32⟩
  | _, _ => ⟨S16x2048x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_cst_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_cst_1 : Ref sig .tc := ⟨.hbm, 42, rfl⟩
abbrev main_call0_call0_v8 : Ref sig .tc := ⟨.hbm, 43, rfl⟩
abbrev main_call0_call0_cst_2 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_cst_3 : Ref sig .tc := ⟨.hbm, 49, rfl⟩
abbrev main_call0_call0_v13 : Ref sig .tc := ⟨.hbm, 50, rfl⟩
abbrev main_call0_call0_cst_4 : Ref sig .tc := ⟨.hbm, 51, rfl⟩
abbrev main_call0_call0_call0_v0 : Ref sig .tc := ⟨.hbm, 52, rfl⟩
abbrev main_call0_call0_call0_v1 : Ref sig .tc := ⟨.hbm, 53, rfl⟩
abbrev main_call0_v0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_5 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩

abbrev nD : Nat := 1
abbrev τ : Topo := Topo.v7x

variable {F : FTy → Type} [FloatOps F]

class Facts₀ : Prop where
  shapeCasts_S16x2048x1x64_S16x2048x64 : S16x2048x1x64.ShapeCasts S16x2048x64
  shapeCasts_S16x1x2048x64_S16x2048x64 : S16x1x2048x64.ShapeCasts S16x2048x64
  bcast_S_S16x2048x2048 : S_.BroadcastsInDim S16x2048x2048 (![] : Fin 0 → Fin S16x2048x2048.rank)
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  shapeCasts_S16x2048x64_S32768x64 : S16x2048x64.ShapeCasts S32768x64
  reducesTo_S32768x64_S32768_d1 : S32768x64.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x64_0_1 : S32768x1.BroadcastsInDim S32768x64 (![0, 1] : Fin 2 → Fin S32768x64.rank)
  shapeCasts_S32768x64_S16x2048x64 : S32768x64.ShapeCasts S16x2048x64
  transposes_S16x2048x64_S16x64x2048_0_2_1 : S16x2048x64.Transposes [0, 2, 1] S16x64x2048
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_1_1_2_2_0_0_wf : DotDims.WF S16x2048x2048 S16x2048x64 S16x2048x64 [1] [1] [2] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_1_1_2_2_0_0 : DotDims S16x2048x2048 S16x2048x64 S16x2048x64 where
  lhsContracting := [1]
  rhsContracting := [1]
  lhsNonContracting := [2]
  rhsNonContracting := [2]
  lhsBatch := [0]
  rhsBatch := [0]
  wf := dot_S16x2048x2048_S16x2048x64_S16x2048x64_1_1_2_2_0_0_wf

class Facts : Prop extends Facts₀ where

variable [Facts]
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.KernOps.lean ====
/-
  The two matrix products of the kernel body, read at one index on the extended reals: the score product contracts
  the 64 features of a key row and a query row, and the mixing product contracts the 2048 key rows of the values and
  the weights. (The sums and the maximum down the rows of a matrix are read in Proof/LibColReduce.lean.)
-/
import proofs.«143836_j38233798869713_1_alg».proof.Proof.Gen.KernelIdeal
import proofs.«143836_j38233798869713_1_alg».proof.Proof.LibColReduce
import Idealize.ShloMosaic.PureOps.Ideal.Laws
import Idealize.ShloMosaic.Lib.ValueIdx

noncomputable section

open scoped BigOperators

namespace Cert.Attn.Kern

open Idealize.ShloMosaic Idealize.ShloMosaic.ValueIdx Cert.KernelIdeal

/-- The score product: row a of the keys against row n of the queries, contracted over the 64 features. -/
theorem dotKQ_apply (A : FVec Ideal S2048x64 .bf16) (B : FVec Ideal S512x64 .bf16) (a : Fin 2048) (n : Fin 512) :
    matmul dot_S2048x64_S512x64_S2048x512_1_1_0_0_n_n none A B (constant S2048x512 .f32 0x00000000#32) (ix2 a n)
      = ∑ k : Fin 64, A (ix2 a k) * B (ix2 n k) := by
  refine (Ideal.matmul_constant_zero_apply dot_S2048x64_S512x64_S2048x512_1_1_0_0_n_n none A B (ix2 a n)).trans ?_
  rw [← Equiv.sum_comp (contrEquiv1 dot_S2048x64_S512x64_S2048x512_1_1_0_0_n_n 64 rfl rfl).symm]
  refine Finset.sum_congr rfl fun k _ => ?_
  congr 2
  · funext d; apply Fin.ext
    match d with
    | ⟨0, _⟩ => rfl
    | ⟨1, _⟩ =>
      exact (DotDims.lhsIdx_val_of_single (d := dot_S2048x64_S512x64_S2048x512_1_1_0_0_n_n) (cl := 1) rfl _ _).trans
        (contrEquiv1_symm_val _ 64 rfl rfl k)
  · funext d; apply Fin.ext
    match d with
    | ⟨0, _⟩ => rfl
    | ⟨1, _⟩ =>
      exact (DotDims.rhsIdx_val_of_single (d := dot_S2048x64_S512x64_S2048x512_1_1_0_0_n_n) (cr := 1) rfl _ _).trans
        (contrEquiv1_symm_val _ 64 rfl rfl k)

/-- The mixing product: column v of the values against column n of the weights, contracted over the 2048 key rows. -/
theorem dotVW_apply (A : FVec Ideal S2048x64 .bf16) (B : FVec Ideal S2048x512 .bf16) (v : Fin 64) (n : Fin 512) :
    matmul dot_S2048x64_S2048x512_S64x512_0_0_1_1_n_n none A B (constant S64x512 .f32 0x00000000#32) (ix2 v n)
      = ∑ a : Fin 2048, A (ix2 a v) * B (ix2 a n) := by
  refine (Ideal.matmul_constant_zero_apply dot_S2048x64_S2048x512_S64x512_0_0_1_1_n_n none A B (ix2 v n)).trans ?_
  rw [← Equiv.sum_comp (contrEquiv1 dot_S2048x64_S2048x512_S64x512_0_0_1_1_n_n 2048 rfl rfl).symm]
  refine Finset.sum_congr rfl fun k _ => ?_
  congr 2
  · funext d; apply Fin.ext
    match d with
    | ⟨0, _⟩ =>
      exact (DotDims.lhsIdx_val_of_single (d := dot_S2048x64_S2048x512_S64x512_0_0_1_1_n_n) (cl := 0) rfl _ _).trans
        (contrEquiv1_symm_val _ 2048 rfl rfl k)
    | ⟨1, _⟩ => rfl
  · funext d; apply Fin.ext
    match d with
    | ⟨0, _⟩ =>
      exact (DotDims.rhsIdx_val_of_single (d := dot_S2048x64_S2048x512_S64x512_0_0_1_1_n_n) (cr := 0) rfl _ _).trans
        (contrEquiv1_symm_val _ 2048 rfl rfl k)
    | ⟨1, _⟩ => rfl

end Cert.Attn.Kern

end
-- ==== Proof.Spec.lean ====
/-
  The mathematics both programs compute, as ONE function of three rank-3 arrays
  K Q V : [16, 2048, 64] (keys, queries and values with the unit axis of the keys and of the
  queries already removed), index by index on the extended reals.

  For a batch b, a key row a, a query row n and a feature v:
    score   = (sum over k of K[b,a,k] * Q[b,n,k]) * (1/8)        (the word 0x3E000000 is 1/8)
    colMax  = the maximum over a of score, starting from -inf
    expo    = exp (score - colMax)
    colSum  = the sum over a of expo
    weight  = expo / colSum                                      (softmax over the key axis)
    mixed   = sum over a of V[b,a,v] * weight[b,a,n]
    mean    = (sum over v of mixed) / 64
    centred = mixed - mean
    sumSq   = sum over v of centred^2
    spread  = sqrt (sumSq / 63)                                  (the unbiased deviation)
    normed  = centred / (spread + eps)                           (eps the word 0x322BCC77)
  The two results are weight laid out [16, 2048, 2048] as (b, a, n) and normed laid out
  [16, 64, 2048] as (b, v, n).
-/
import Idealize.ShloMosaic.PureOps.Ideal
import Idealize.ShloMosaic.Lib.ValueIdx

noncomputable section

open scoped BigOperators

namespace Cert.Attn

open Idealize.ShloMosaic Idealize.ShloMosaic.ValueIdx

/-- A rank-3 array of extended reals with 16 batches, 2048 rows and 64 features. -/
abbrev Arr3 : Type := (⟨3, ![16, 2048, 64]⟩ : Shape).Idx → EReal

variable (K Q V : Arr3)

/-- The scaled score of key row a against query row n in batch b. -/
def score (b : Fin 16) (a n : Fin 2048) : EReal :=
  (∑ k : Fin 64, K (ix3 b a k) * Q (ix3 b n k)) * Ideal.ofBits .f32 0x3E000000#32

/-- The largest score of query row n over all key rows, from -inf. -/
def colMax (b : Fin 16) (n : Fin 2048) : EReal :=
  (Finset.univ : Finset (Fin 2048)).fold max (Ideal.ofBits .f32 0xFF800000#32) (fun a => score K Q b a n)

/-- The exponential of a score shifted by its column's maximum. -/
def expo (b : Fin 16) (a n : Fin 2048) : EReal := Ideal.exp (score K Q b a n - colMax K Q b n)

/-- The sum of a column's shifted exponentials. -/
def colSum (b : Fin 16) (n : Fin 2048) : EReal := ∑ a : Fin 2048, expo K Q b a n

/-- The softmax weight of key row a for query row n. -/
def weight (b : Fin 16) (a n : Fin 2048) : EReal := Ideal.div (expo K Q b a n) (colSum K Q b n)

/-- The values mixed by the weights: feature v of query row n. -/
def mixed (b : Fin 16) (v : Fin 64) (n : Fin 2048) : EReal := ∑ a : Fin 2048, V (ix3 b a v) * weight K Q b a n

/-- The mean of a query row's 64 mixed features. -/
def mean (b : Fin 16) (n : Fin 2048) : EReal :=
  Ideal.div (∑ v : Fin 64, mixed K Q V b v n) (Ideal.ofBits .f32 0x42800000#32)

/-- A mixed feature less its row's mean. -/
def centred (b : Fin 16) (v : Fin 64) (n : Fin 2048) : EReal := mixed K Q V b v n - mean K Q V b n

/-- The sum of a row's squared centred features. -/
def sumSq (b : Fin 16) (n : Fin 2048) : EReal := ∑ v : Fin 64, centred K Q V b v n * centred K Q V b v n

/-- The unbiased standard deviation of a row: the root of the sum of squares over 63. -/
def spread (b : Fin 16) (n : Fin 2048) : EReal :=
  Ideal.sqrt (Ideal.div (sumSq K Q V b n) (Ideal.ofBits .f32 0x427C0000#32))

/-- A centred feature over its row's deviation plus the small constant. -/
def normed (b : Fin 16) (v : Fin 64) (n : Fin 2048) : EReal :=
  Ideal.div (centred K Q V b v n) (spread K Q V b n + Ideal.ofBits .f32 0x322BCC77#32)

/-- The first result: the normalised mixture, laid out (batch, feature, query row). -/
def outArr : (⟨3, ![16, 64, 2048]⟩ : Shape).Idx → EReal := fun i => normed K Q V (i 0) (i 1) (i 2)

/-- The second result: the softmax weights, laid out (batch, key row, query row). -/
def wgtArr : (⟨3, ![16, 2048, 2048]⟩ : Shape).Idx → EReal := fun i => weight K Q (i 0) (i 1) (i 2)

/-- The keys [16, 2048, 1, 64] read row-major at [16, 2048, 64]: the unit axis removed. -/
def flatK (x : (⟨4, ![16, 2048, 1, 64]⟩ : Shape).Idx → EReal) : Arr3 :=
  shapeCast ⟨3, ![16, 2048, 64]⟩ x (by decide)

/-- The queries [16, 1, 2048, 64] read row-major at [16, 2048, 64]: the unit axis removed. -/
def flatQ (x : (⟨4, ![16, 1, 2048, 64]⟩ : Shape).Idx → EReal) : Arr3 :=
  shapeCast ⟨3, ![16, 2048, 64]⟩ x (by decide)

theorem outArr_ix (b : Fin 16) (v : Fin 64) (n : Fin 2048) : outArr K Q V (ix3 b v n) = normed K Q V b v n := rfl
theorem wgtArr_ix (b : Fin 16) (a n : Fin 2048) : wgtArr K Q (ix3 b a n) = weight K Q b a n := rfl

end Cert.Attn

end
-- ==== Proof.KernRow.lean ====
/-
  The specification seen from ONE query row: everything the two results hold at batch b and query row n depends on
  the batch's keys kb[a, k], the one query row q[k] and the batch's values vb[a, v] only. Here the same formulas are
  written over those three pieces, and the whole-array functions of the specification are these at the pieces cut
  from the arrays. A block of the kernel holds exactly such pieces, so its results are read off directly.
-/
import proofs.«143836_j38233798869713_1_alg».proof.Proof.Spec

noncomputable section

open scoped BigOperators

namespace Cert.Attn.Row

open Idealize.ShloMosaic Idealize.ShloMosaic.ValueIdx

variable (kb : Fin 2048 → Fin 64 → EReal) (q : Fin 64 → EReal) (vb : Fin 2048 → Fin 64 → EReal)

/-- The scaled score of key row a against the query row. -/
def score (a : Fin 2048) : EReal := (∑ k : Fin 64, kb a k * q k) * Ideal.ofBits .f32 0x3E000000#32

/-- The largest score over the key rows, from -inf. -/
def colMax : EReal :=
  (Finset.univ : Finset (Fin 2048)).fold max (Ideal.ofBits .f32 0xFF800000#32) (fun a => score kb q a)

/-- The exponential of a score shifted by the maximum. -/
def expo (a : Fin 2048) : EReal := Ideal.exp (score kb q a - colMax kb q)

/-- The sum of the shifted exponentials. -/
def colSum : EReal := ∑ a : Fin 2048, expo kb q a

/-- The softmax weight of key row a. -/
def weight (a : Fin 2048) : EReal := Ideal.div (expo kb q a) (colSum kb q)

/-- Feature v of the values mixed by the weights. -/
def mixed (v : Fin 64) : EReal := ∑ a : Fin 2048, vb a v * weight kb q a

/-- The mean of the 64 mixed features. -/
def mean : EReal := Ideal.div (∑ v : Fin 64, mixed kb q vb v) (Ideal.ofBits .f32 0x42800000#32)

/-- A mixed feature less the mean. -/
def centred (v : Fin 64) : EReal := mixed kb q vb v - mean kb q vb

/-- The sum of the squared centred features. -/
def sumSq : EReal := ∑ v : Fin 64, centred kb q vb v * centred kb q vb v

/-- The unbiased standard deviation. -/
def spread : EReal := Ideal.sqrt (Ideal.div (sumSq kb q vb) (Ideal.ofBits .f32 0x427C0000#32))

/-- A centred feature over the deviation plus the small constant. -/
def normed (v : Fin 64) : EReal :=
  Ideal.div (centred kb q vb v) (spread kb q vb + Ideal.ofBits .f32 0x322BCC77#32)

end Cert.Attn.Row

namespace Cert.Attn

open Idealize.ShloMosaic Idealize.ShloMosaic.ValueIdx

variable (K Q V : Arr3)

/-- The keys of batch b. -/
def keysOf (b : Fin 16) : Fin 2048 → Fin 64 → EReal := fun a k => K (ix3 b a k)
/-- Query row n of batch b. -/
def queryOf (b : Fin 16) (n : Fin 2048) : Fin 64 → EReal := fun k => Q (ix3 b n k)
/-- The values of batch b. -/
def valuesOf (b : Fin 16) : Fin 2048 → Fin 64 → EReal := fun a v => V (ix3 b a v)

theorem score_row (b : Fin 16) (a n : Fin 2048) : score K Q b a n = Row.score (keysOf K b) (queryOf Q b n) a := rfl
theorem colMax_row (b : Fin 16) (n : Fin 2048) : colMax K Q b n = Row.colMax (keysOf K b) (queryOf Q b n) := rfl
theorem expo_row (b : Fin 16) (a n : Fin 2048) : expo K Q b a n = Row.expo (keysOf K b) (queryOf Q b n) a := rfl
theorem colSum_row (b : Fin 16) (n : Fin 2048) : colSum K Q b n = Row.colSum (keysOf K b) (queryOf Q b n) := rfl
/-- The weight at (b, a, n) is the one-row weight at the batch's keys and the query row. -/
theorem weight_row (b : Fin 16) (a n : Fin 2048) : weight K Q b a n = Row.weight (keysOf K b) (queryOf Q b n) a := rfl
theorem mixed_row (b : Fin 16) (v : Fin 64) (n : Fin 2048) :
    mixed K Q V b v n = Row.mixed (keysOf K b) (queryOf Q b n) (valuesOf V b) v := rfl
theorem mean_row (b : Fin 16) (n : Fin 2048) : mean K Q V b n = Row.mean (keysOf K b) (queryOf Q b n) (valuesOf V b) := rfl
theorem centred_row (b : Fin 16) (v : Fin 64) (n : Fin 2048) :
    centred K Q V b v n = Row.centred (keysOf K b) (queryOf Q b n) (valuesOf V b) v := rfl
theorem sumSq_row (b : Fin 16) (n : Fin 2048) : sumSq K Q V b n = Row.sumSq (keysOf K b) (queryOf Q b n) (valuesOf V b) := rfl
theorem spread_row (b : Fin 16) (n : Fin 2048) : spread K Q V b n = Row.spread (keysOf K b) (queryOf Q b n) (valuesOf V b) := rfl
/-- The normalised feature at (b, v, n) is the one-row one at the batch's keys and values and the query row. -/
theorem normed_row (b : Fin 16) (v : Fin 64) (n : Fin 2048) :
    normed K Q V b v n = Row.normed (keysOf K b) (queryOf Q b n) (valuesOf V b) v := rfl

end Cert.Attn

end
-- ==== Proof.KernPay.lean ====
/-
  The kernel body's values at one index, on the extended reals.

  A block of the kernel holds the keys of one batch (P0, [1, 2048, 64]), 512 query rows (P1, [1, 512, 64]) and the
  values of the batch (P2, [1, 2048, 64]). For column n of the block the body computes exactly the one-row formulas at
  the block's keys, query row n and values: its score matrix entry (a, n) is the scaled score of key row a, the
  column maximum and the column sum of exponentials are the one-row maximum and sum, the quotient is the softmax
  weight; the second product mixes the values by the weights, and the row statistics (mean, centred value, sum of
  squares) follow. Changes of float format are the identity here, and a shape cast that drops or adds the leading
  unit axis, or a broadcast of one row over many, only renames the index.
-/
import proofs.«143836_j38233798869713_1_alg».proof.Proof.Gen.KernelIdeal.Skeleton
import proofs.«143836_j38233798869713_1_alg».proof.Proof.KernOps
import proofs.«143836_j38233798869713_1_alg».proof.Proof.KernRow
import Idealize.ShloMosaic.Lib.ValueLayout
import Idealize.ShloMosaic.Lib.Pipeline.Value

noncomputable section

open scoped BigOperators

namespace Cert.Attn.Kern

open Idealize.ShloMosaic Idealize.ShloMosaic.ValueIdx Cert.KernelIdeal Cert.KernelIdeal.Gen Cert.Lib

variable (P0 : Vec Ideal S1x2048x64 .f32) (P1 : Vec Ideal S1x512x64 .f32) (P2 : Vec Ideal S1x2048x64 .f32)

/-- The block's keys: row a, feature k. -/
def bk : Fin 2048 → Fin 64 → EReal := fun a k => P0 (ix3 (0 : Fin 1) a k)
/-- The block's query row n. -/
def bq (n : Fin 512) : Fin 64 → EReal := fun k => P1 (ix3 (0 : Fin 1) n k)
/-- The block's values: row a, feature v. -/
def bv : Fin 2048 → Fin 64 → EReal := fun a v => P2 (ix3 (0 : Fin 1) a v)

/-- One row spread over many and read back: a [512] vector cast to [1, 512] and broadcast to [R, 512] reads, at (p, n),
    the vector at n. -/
theorem rowBcast_apply {R : Nat} (r : FVec Ideal S512 .f32) (h1 : S512.ShapeCasts S1x512)
    (h2 : S1x512.Broadcasts (⟨2, ![R, 512]⟩ : Shape)) (p : Fin R) (n : Fin 512) :
    broadcastTo (⟨2, ![R, 512]⟩ : Shape) (shapeCast S1x512 r h1) h2 (ix2 p n) = r (ix1 n) :=
  (broadcastTo_1b_ab_apply _ h2 p n).trans (shapeCast_a_1a_apply r h1 0 n)

/-! ## The softmax weights -/

/-- The scaled score matrix of the block. -/
def sVec : FVec Ideal S2048x512 .f32 :=
  mulf (matmul dot_S2048x64_S512x64_S2048x512_1_1_0_0_n_n none
      (truncf .bf16 (shapeCast S2048x64 P0 shapeCasts_S1x2048x64_S2048x64) bitsLt_bf16_f32)
      (truncf .bf16 (shapeCast S512x64 P1 shapeCasts_S1x512x64_S512x64) bitsLt_bf16_f32)
      (constant S2048x512 .f32 0x00000000#32))
    (broadcast S2048x512 (Scalar.ofBits .f32 0x3E000000#32))

/-- Its column maxima. -/
def mRow : FVec Ideal S512 .f32 :=
  multiReduction .maximumf [0] S512 (sVec P0 P1) 0xFF800000#32 reduces_S2048x512_S512 (.inl rfl) rfl

/-- The exponentials of the scores shifted by their column's maximum. -/
def eVec : FVec Ideal S2048x512 .f32 :=
  exp (subf (sVec P0 P1) (broadcastTo S2048x512 (shapeCast S1x512 (mRow P0 P1) shapeCasts_S512_S1x512) broadcasts_S1x512_S2048x512))

/-- Their column sums. -/
def lRow : FVec Ideal S512 .f32 :=
  multiReduction .add [0] S512 (eVec P0 P1) 0x00000000#32 reduces_S2048x512_S512 (.inl rfl) rfl

/-- The weight payload is the exponentials over their column sums. -/
theorem pay2_unf : k0_pay2 P0 P1
    = divf (eVec P0 P1) (broadcastTo S2048x512 (shapeCast S1x512 (lRow P0 P1) shapeCasts_S512_S1x512) broadcasts_S1x512_S2048x512) := rfl

theorem sVec_at (a : Fin 2048) (n : Fin 512) : sVec P0 P1 (ix2 a n) = Row.score (bk P0) (bq P1 n) a := by
  refine congrArg (· * Ideal.ofBits .f32 0x3E000000#32) ?_
  refine (dotKQ_apply _ _ a n).trans (Finset.sum_congr rfl fun k _ => ?_)
  exact congrArg₂ (· * ·) (shapeCast_1ab_ab_apply P0 _ a k) (shapeCast_1ab_ab_apply P1 _ n k)

theorem mRow_at (n : Fin 512) : mRow P0 P1 (ix1 n) = Row.colMax (bk P0) (bq P1 n) :=
  (colMax_apply (sVec P0 P1) _ _ _ _ n).trans
    (congrArg (fun f => Finset.fold max (Ideal.ofBits .f32 0xFF800000#32) f (Finset.univ : Finset (Fin 2048)))
      (funext fun a => sVec_at P0 P1 a n))

theorem eVec_at (a : Fin 2048) (n : Fin 512) : eVec P0 P1 (ix2 a n) = Row.expo (bk P0) (bq P1 n) a := by
  show Ideal.exp (sVec P0 P1 (ix2 a n)
      - broadcastTo S2048x512 (shapeCast S1x512 (mRow P0 P1) shapeCasts_S512_S1x512) broadcasts_S1x512_S2048x512 (ix2 a n))
    = Ideal.exp (Row.score (bk P0) (bq P1 n) a - Row.colMax (bk P0) (bq P1 n))
  rw [sVec_at, rowBcast_apply, mRow_at]

theorem lRow_at (n : Fin 512) : lRow P0 P1 (ix1 n) = Row.colSum (bk P0) (bq P1 n) :=
  (colAdd_apply (eVec P0 P1) _ _ _ n).trans (Finset.sum_congr rfl fun a _ => eVec_at P0 P1 a n)

/-- The weight payload at (a, n) is the softmax weight of key row a for the block's query row n. -/
theorem pay2_at (a : Fin 2048) (n : Fin 512) : k0_pay2 P0 P1 (ix2 a n) = Row.weight (bk P0) (bq P1 n) a := by
  rw [pay2_unf]
  show Ideal.div (eVec P0 P1 (ix2 a n))
      (broadcastTo S2048x512 (shapeCast S1x512 (lRow P0 P1) shapeCasts_S512_S1x512) broadcasts_S1x512_S2048x512 (ix2 a n))
    = Ideal.div (Row.expo (bk P0) (bq P1 n) a) (Row.colSum (bk P0) (bq P1 n))
  rw [eVec_at, rowBcast_apply, lRow_at]

/-! ## The mixed values and their row statistics -/

/-- The values mixed by the weights: feature v, query row n. -/
def xVec : FVec Ideal S64x512 .f32 :=
  matmul dot_S2048x64_S2048x512_S64x512_0_0_1_1_n_n none
    (truncf .bf16 (shapeCast S2048x64 P2 shapeCasts_S1x2048x64_S2048x64) bitsLt_bf16_f32)
    (truncf .bf16 (k0_pay2 P0 P1) bitsLt_bf16_f32)
    (constant S64x512 .f32 0x00000000#32)

/-- The mean of each query row's 64 mixed features. -/
def muRow : FVec Ideal S1x512 .f32 :=
  divf (shapeCast S1x512 (multiReduction .add [0] S512 (xVec P0 P1 P2) 0x00000000#32 reduces_S64x512_S512 (.inl rfl) rfl) shapeCasts_S512_S1x512)
    (broadcast S1x512 (Scalar.ofBits .f32 0x42800000#32))

/-- The centred payload is the mixed values less their row's mean. -/
theorem pay4_unf : k0_pay4 P0 P1 P2 = subf (xVec P0 P1 P2) (broadcastTo S64x512 (muRow P0 P1 P2) broadcasts_S1x512_S64x512) := rfl

theorem xVec_at (v : Fin 64) (n : Fin 512) : xVec P0 P1 P2 (ix2 v n) = Row.mixed (bk P0) (bq P1 n) (bv P2) v :=
  (dotVW_apply _ _ v n).trans (Finset.sum_congr rfl fun a _ =>
    congrArg₂ (· * ·) (shapeCast_1ab_ab_apply P2 _ a v) (pay2_at P0 P1 a n))

theorem muRow_at (n : Fin 512) : muRow P0 P1 P2 (ix2 (0 : Fin 1) n) = Row.mean (bk P0) (bq P1 n) (bv P2) := by
  show Ideal.div (shapeCast S1x512 (multiReduction .add [0] S512 (xVec P0 P1 P2) 0x00000000#32 reduces_S64x512_S512 (.inl rfl) rfl)
        shapeCasts_S512_S1x512 (ix2 (0 : Fin 1) n)) (Ideal.ofBits .f32 0x42800000#32)
    = Ideal.div (∑ v : Fin 64, Row.mixed (bk P0) (bq P1 n) (bv P2) v) (Ideal.ofBits .f32 0x42800000#32)
  refine congrArg (Ideal.div · (Ideal.ofBits .f32 0x42800000#32)) ?_
  refine (shapeCast_a_1a_apply _ _ 0 n).trans ?_
  exact (colAdd_apply (xVec P0 P1 P2) _ _ _ n).trans (Finset.sum_congr rfl fun v _ => xVec_at P0 P1 P2 v n)

/-- The centred payload at (v, n) is feature v of query row n less the row's mean. -/
theorem pay4_at (v : Fin 64) (n : Fin 512) : k0_pay4 P0 P1 P2 (ix2 v n) = Row.centred (bk P0) (bq P1 n) (bv P2) v := by
  rw [pay4_unf]
  show xVec P0 P1 P2 (ix2 v n) - broadcastTo S64x512 (muRow P0 P1 P2) broadcasts_S1x512_S64x512 (ix2 v n)
    = Row.mixed (bk P0) (bq P1 n) (bv P2) v - Row.mean (bk P0) (bq P1 n) (bv P2)
  rw [xVec_at, broadcastTo_1b_ab_apply, muRow_at]

/-- The sum of squares of a query row's centred features, as the body takes it. -/
theorem sumSq_at (n : Fin 512) :
    multiReduction .add [0] S512 (mulf (k0_pay4 P0 P1 P2) (k0_pay4 P0 P1 P2)) 0x00000000#32 reduces_S64x512_S512 (.inl rfl) rfl (ix1 n)
      = Row.sumSq (bk P0) (bq P1 n) (bv P2) :=
  (colAdd_apply _ _ _ _ n).trans (Finset.sum_congr rfl fun v _ =>
    congrArg₂ (· * ·) (pay4_at P0 P1 P2 v n) (pay4_at P0 P1 P2 v n))

end Cert.Attn.Kern

end
-- ==== Proof.KernBlocks.lean ====
/-
  From blocks to whole arrays. The grid has 16 x 4 points; point (b, q) stages the keys and the values of batch b whole,
  query rows 512 q .. 512 q + 511 of batch b, and writes back columns 512 q .. 512 q + 511 of the two results of batch
  b. So what a point writes back is the block of the specification's arrays at that place, and the 64 blocks tile each
  result array: the arrays end holding the specification's functions of the keys and queries with their unit axis
  removed and of the values.
-/
import proofs.«143836_j38233798869713_1_alg».proof.Proof.Gen.KernelIdeal.Value
import proofs.«143836_j38233798869713_1_alg».proof.Proof.KernPay
import Idealize.ShloMosaic.Lib.StableHlo.Run

set_option maxRecDepth 16384

noncomputable section

open scoped BigOperators

namespace Cert.Attn.Kern

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The keys as launched, unit axis removed. -/
abbrev KA (c : Dev nD) : Arr3 := flatK (m ((c : Thread nD τ).loc main_arg0))
/-- The queries as launched, unit axis removed. -/
abbrev QA (c : Dev nD) : Arr3 := flatQ (m ((c : Thread nD τ).loc main_arg1))
/-- The values as launched. -/
abbrev VA (c : Dev nD) : Arr3 := m ((c : Thread nD τ).loc main_arg2)

/-- The region finds the first staged array holding the keys with their unit axis removed. -/
theorem V_keys (c : Dev nD) : (V m c main_v0 : S16x2048x64.Idx → EReal) = KA m c := by
  dsimp only [Gen.V, Gen.hostOps0]
  after_results
  rfl

/-- The region finds the second staged array holding the queries with their unit axis removed. -/
theorem V_queries (c : Dev nD) : (V m c main_v1 : S16x2048x64.Idx → EReal) = QA m c := by
  dsimp only [Gen.V, Gen.hostOps0]
  after_results
  rfl

/-- The all-zero offsets of the body's whole-buffer loads. -/
theorem hz3 : (![0, 0, 0] : Fin 3 → Nat) = fun _ => 0 := funext fun a => by fin_cases a <;> rfl

/-- The index maps over the grid: every window sits at the batch of the weights' window, the query window moves with the
    weights' and the output's columns, and the other coordinates are 0. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = win0_4.index t (2 : Fin 3) ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = win0_4.index t (2 : Fin 3)
    ∧ win0_4.index t (1 : Fin 3) = 0 ∧ win0_4.index t (0 : Fin 3) < 16 ∧ win0_4.index t (2 : Fin 3) < 4 :=
  (by decide +kernel : ∀ t : Fin grid0.N, _)

/-- Every (batch, column block) is some point's. -/
theorem idx_onto : ∀ (b : Fin 16) (q : Fin 4), ∃ t : Fin cfg0.N, win0_4.index t = ![b.val, 0, q.val] ∧ win0_3.index t = ![b.val, 0, q.val] :=
  (by decide +kernel : ∀ (b : Fin 16) (q : Fin 4), ∃ t : Fin grid0.N, win0_4.index t = ![b.val, 0, q.val] ∧ win0_3.index t = ![b.val, 0, q.val])

/-- The batch of point t. -/
def bOf (t : Fin cfg0.N) : Fin 16 := ⟨win0_4.index t (0 : Fin 3), (idx_facts t).2.2.2.2.2.2.2.2.2.2.2.2.2.1⟩
/-- The column block of point t. -/
def qOf (t : Fin cfg0.N) : Fin 4 := ⟨win0_4.index t (2 : Fin 3), (idx_facts t).2.2.2.2.2.2.2.2.2.2.2.2.2.2⟩

/-- Column n of column block q as a column of the whole array. -/
def colOf (q : Fin 4) (n : Fin 512) : Fin 2048 := ⟨q.val * 512 + n.val, by have := q.isLt; have := n.isLt; omega⟩

/-! ## What the blocks of a point hold -/

/-- The key block of point t is the keys of its batch. -/
theorem keys_blk (c : Dev nD) (t : Fin cfg0.N) : bk (iblk m c 0 t) = keysOf (KA m c) (bOf t) := by
  funext a k
  show V m c main_v0 (((cfg0.win 0).blk t).view.emb (ix3 (0 : Fin 1) a k)) = KA m c (ix3 (bOf t) a k)
  rw [V_keys]
  obtain ⟨e0, e1, e2, -⟩ := idx_facts t
  refine congrArg (KA m c) (funext fun d => Fin.ext ?_)
  match d with
  | ⟨0, _⟩ => show win0_0.index t (0 : Fin 3) * 1 + 1 * 0 = win0_4.index t (0 : Fin 3); omega
  | ⟨1, _⟩ => show win0_0.index t (1 : Fin 3) * 2048 + 1 * a.val = a.val; omega
  | ⟨2, _⟩ => show win0_0.index t (2 : Fin 3) * 64 + 1 * k.val = k.val; omega

/-- Row n of the query block of point t is query row 512 q + n of its batch. -/
theorem query_blk (c : Dev nD) (t : Fin cfg0.N) (n : Fin 512) :
    bq (iblk m c 1 t) n = queryOf (QA m c) (bOf t) (colOf (qOf t) n) := by
  funext k
  show V m c main_v1 (((cfg0.win 1).blk t).view.emb (ix3 (0 : Fin 1) n k)) = QA m c (ix3 (bOf t) (colOf (qOf t) n) k)
  rw [V_queries]
  obtain ⟨-, -, -, e0, e1, e2, -⟩ := idx_facts t
  refine congrArg (QA m c) (funext fun d => Fin.ext ?_)
  match d with
  | ⟨0, _⟩ => show win0_1.index t (0 : Fin 3) * 1 + 1 * 0 = win0_4.index t (0 : Fin 3); omega
  | ⟨1, _⟩ => show win0_1.index t (1 : Fin 3) * 512 + 1 * n.val = win0_4.index t (2 : Fin 3) * 512 + n.val; omega
  | ⟨2, _⟩ => show win0_1.index t (2 : Fin 3) * 64 + 1 * k.val = k.val; omega

/-- The value block of point t is the values of its batch. -/
theorem values_blk (c : Dev nD) (t : Fin cfg0.N) : bv (iblk m c 2 t) = valuesOf (VA m c) (bOf t) := by
  funext a v
  show V m c main_arg2 (((cfg0.win 2).blk t).view.emb (ix3 (0 : Fin 1) a v)) = VA m c (ix3 (bOf t) a v)
  rw [V_main_arg2]
  obtain ⟨-, -, -, -, -, -, e0, e1, e2, -⟩ := idx_facts t
  refine congrArg (VA m c) (funext fun d => Fin.ext ?_)
  match d with
  | ⟨0, _⟩ => show win0_2.index t (0 : Fin 3) * 1 + 1 * 0 = win0_4.index t (0 : Fin 3); omega
  | ⟨1, _⟩ => show win0_2.index t (1 : Fin 3) * 2048 + 1 * a.val = a.val; omega
  | ⟨2, _⟩ => show win0_2.index t (2 : Fin 3) * 64 + 1 * v.val = v.val; omega

/-! ## What the body leaves in the two output blocks -/

/-- The weights' block after the body, at (0, a, n): the softmax weight of key row a for the block's query row n. -/
theorem out4_at (x0 : Vec Ideal S1x2048x64 .f32) (x1 : Vec Ideal S1x512x64 .f32) (x2 : Vec Ideal S1x2048x64 .f32)
    (a : Fin 2048) (n : Fin 512) :
    out0_4 x0 x1 x2 (ix3 (0 : Fin 1) a n) = Row.weight (bk x0) (bq x1 n) a := by
  unfold out0_4
  simp only [View.ld_unit_zero (S := S1x2048x64) hz3, View.ld_unit_zero (S := S1x512x64) hz3]
  rw [Cert.KernelIdeal.Value.canon4_eq]
  show k0_pay2 x0 x1 (Cert.KernelIdeal.Value.ix4_0 (ix3 (0 : Fin 1) a n)) = _
  have h : Cert.KernelIdeal.Value.ix4_0 (ix3 (0 : Fin 1) a n) = ix2 a n := funext fun d => Fin.ext (by
    match d with
    | ⟨0, _⟩ => rfl
    | ⟨1, _⟩ => rfl)
  rw [h]
  exact pay2_at x0 x1 a n

/-- The output block after the body, at (0, v, n): the normalised feature v of the block's query row n. -/
theorem out3_at (x0 : Vec Ideal S1x2048x64 .f32) (x1 : Vec Ideal S1x512x64 .f32) (x2 : Vec Ideal S1x2048x64 .f32)
    (v : Fin 64) (n : Fin 512) :
    out0_3 x0 x1 x2 (ix3 (0 : Fin 1) v n) = Row.normed (bk x0) (bq x1 n) (bv x2) v := by
  unfold out0_3
  simp only [View.ld_unit_zero (S := S1x2048x64) hz3, View.ld_unit_zero (S := S1x512x64) hz3]
  rw [Cert.KernelIdeal.Value.canon3_eq]
  have h0 : Cert.KernelIdeal.Value.ix3_0 (ix3 (0 : Fin 1) v n) = ix2 v n := funext fun d => Fin.ext (by
    match d with
    | ⟨0, _⟩ => rfl
    | ⟨1, _⟩ => rfl)
  have h1 : Cert.KernelIdeal.Value.ix3_1 (ix3 (0 : Fin 1) v n) = ix1 n := funext fun d => Fin.ext (by
    match d with
    | ⟨0, _⟩ => rfl)
  show Ideal.div (k0_pay4 x0 x1 x2 (Cert.KernelIdeal.Value.ix3_0 (ix3 (0 : Fin 1) v n)))
      (Ideal.sqrt (Ideal.div
          (multiReduction .add [0] S512 (mulf (k0_pay4 x0 x1 x2) (k0_pay4 x0 x1 x2)) 0x00000000#32 reduces_S64x512_S512 (.inl rfl) rfl
            (Cert.KernelIdeal.Value.ix3_1 (ix3 (0 : Fin 1) v n)))
          (Ideal.ofBits .f32 0x427C0000#32))
        + Ideal.ofBits .f32 0x322BCC77#32)
    = Ideal.div (Row.centred (bk x0) (bq x1 n) (bv x2) v)
        (Ideal.sqrt (Ideal.div (Row.sumSq (bk x0) (bq x1 n) (bv x2)) (Ideal.ofBits .f32 0x427C0000#32)) + Ideal.ofBits .f32 0x322BCC77#32)
  rw [h0, h1, pay4_at]
  exact congrArg (fun s => Ideal.div (Row.centred (bk x0) (bq x1 n) (bv x2) v)
      (Ideal.sqrt (Ideal.div s (Ideal.ofBits .f32 0x427C0000#32)) + Ideal.ofBits .f32 0x322BCC77#32)) (sumSq_at x0 x1 x2 n)

/-! ## What a point writes back is the specification's block -/

/-- Element (0, r, n) of point t's block of a [16, R, 2048] result sits at (batch of t, r, 512 q + n) of the array. -/
theorem emb4 (t : Fin cfg0.N) (a : Fin 2048) (n : Fin 512) :
    ((cfg0.win 4).blk t).view.emb (ix3 (0 : Fin 1) a n) = ix3 (bOf t) a (colOf (qOf t) n) := by
  obtain ⟨-, -, -, -, -, -, -, -, -, -, -, -, e1, -, -⟩ := idx_facts t
  funext d; apply Fin.ext
  match d with
  | ⟨0, _⟩ => show win0_4.index t (0 : Fin 3) * 1 + 1 * 0 = win0_4.index t (0 : Fin 3); omega
  | ⟨1, _⟩ => show win0_4.index t (1 : Fin 3) * 2048 + 1 * a.val = a.val; omega
  | ⟨2, _⟩ => show win0_4.index t (2 : Fin 3) * 512 + 1 * n.val = win0_4.index t (2 : Fin 3) * 512 + n.val; omega

theorem emb3 (t : Fin cfg0.N) (v : Fin 64) (n : Fin 512) :
    ((cfg0.win 3).blk t).view.emb (ix3 (0 : Fin 1) v n) = ix3 (bOf t) v (colOf (qOf t) n) := by
  obtain ⟨-, -, -, -, -, -, -, -, -, e0, e1, e2, -, -, -⟩ := idx_facts t
  funext d; apply Fin.ext
  match d with
  | ⟨0, _⟩ => show win0_3.index t (0 : Fin 3) * 1 + 1 * 0 = win0_4.index t (0 : Fin 3); omega
  | ⟨1, _⟩ => show win0_3.index t (1 : Fin 3) * 64 + 1 * v.val = v.val; omega
  | ⟨2, _⟩ => show win0_3.index t (2 : Fin 3) * 512 + 1 * n.val = win0_4.index t (2 : Fin 3) * 512 + n.val; omega

/-- Point t writes back its block of the weights of the launched keys and queries. -/
theorem flushed4_eq (c : Dev nD) (t : Fin cfg0.N) :
    (dats m 0 c).flushed 4 t = ((cfg0.win 4).blk t).view.read (Elt Ideal) (wgtArr (KA m c) (QA m c)) := by
  rw [Cert.KernelIdeal.Value.flushed4]
  funext j
  obtain ⟨u, a, n, rfl⟩ : ∃ (u : Fin 1) (a : Fin 2048) (n : Fin 512), j = ix3 u a n := ⟨j 0, j 1, j 2, eq_ix3 j⟩
  obtain rfl : u = 0 := Subsingleton.elim _ _
  show out0_4 (iblk m c 0 t) (iblk m c 1 t) (iblk m c 2 t) (ix3 (0 : Fin 1) a n)
    = wgtArr (KA m c) (QA m c) (((cfg0.win 4).blk t).view.emb (ix3 (0 : Fin 1) a n))
  refine (out4_at (iblk m c 0 t) (iblk m c 1 t) (iblk m c 2 t) a n).trans ?_
  rw [keys_blk, query_blk, emb4, wgtArr_ix, weight_row]

/-- Point t writes back its block of the normalised mixture of the launched keys, queries and values. -/
theorem flushed3_eq (c : Dev nD) (t : Fin cfg0.N) :
    (dats m 0 c).flushed 3 t = ((cfg0.win 3).blk t).view.read (Elt Ideal) (outArr (KA m c) (QA m c) (VA m c)) := by
  rw [Cert.KernelIdeal.Value.flushed3]
  funext j
  obtain ⟨u, v, n, rfl⟩ : ∃ (u : Fin 1) (v : Fin 64) (n : Fin 512), j = ix3 u v n := ⟨j 0, j 1, j 2, eq_ix3 j⟩
  obtain rfl : u = 0 := Subsingleton.elim _ _
  show out0_3 (iblk m c 0 t) (iblk m c 1 t) (iblk m c 2 t) (ix3 (0 : Fin 1) v n)
    = outArr (KA m c) (QA m c) (VA m c) (((cfg0.win 3).blk t).view.emb (ix3 (0 : Fin 1) v n))
  refine (out3_at (iblk m c 0 t) (iblk m c 1 t) (iblk m c 2 t) v n).trans ?_
  rw [keys_blk, query_blk, values_blk, emb3, outArr_ix, normed_row]

/-! ## The blocks tile the arrays -/

theorem mem_blk4 (t : Fin cfg0.N) (i : S16x2048x2048.Idx) :
    i ∈ ((cfg0.win 4).blk t).view.set ↔ ∀ a : Fin 3, win0_4.index t a * S1x2048x512.size a ≤ (i a).val
      ∧ (i a).val < win0_4.index t a * S1x2048x512.size a + S1x2048x512.size a := by
  show i ∈ ((View.whole main_v2_1).slice (win0_4.rect t)).set ↔ _
  rw [View.set_slice_whole, Rect.mem_set_unit]
  exact Iff.rfl

theorem mem_blk3 (t : Fin cfg0.N) (i : S16x64x2048.Idx) :
    i ∈ ((cfg0.win 3).blk t).view.set ↔ ∀ a : Fin 3, win0_3.index t a * S1x64x512.size a ≤ (i a).val
      ∧ (i a).val < win0_3.index t a * S1x64x512.size a + S1x64x512.size a := by
  show i ∈ ((View.whole main_v2_0).slice (win0_3.rect t)).set ↔ _
  rw [View.set_slice_whole, Rect.mem_set_unit]
  exact Iff.rfl

/-- Every index of the weights is in the block of the point at its batch and its column's block of 512. -/
theorem cover4 (i : S16x2048x2048.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht, -⟩ := idx_onto ⟨(i 0).val, hi0⟩ ⟨(i 2).val / 512, by omega⟩
  have q0 : win0_4.index t (0 : Fin 3) = (i 0).val := congrFun ht 0
  have q1 : win0_4.index t (1 : Fin 3) = 0 := congrFun ht 1
  have q2 : win0_4.index t (2 : Fin 3) = (i 2).val / 512 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 512 ≤ (i 2).val ∧ (i 2).val < win0_4.index t (2 : Fin 3) * 512 + 512; omega

/-- Every index of the output is in the block of the point at its batch and its column's block of 512. -/
theorem cover3 (i : S16x64x2048.Idx) : ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 2048 := (i 2).isLt
  obtain ⟨t, -, ht⟩ := idx_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-! ## The arrays after the run -/

/-- The weights' array ends holding the specification's weights of the launched keys and queries. -/
theorem final4 (c : Dev nD) : (dats m 0 c).arrAt 4 cfg0.N = wgtArr (KA m c) (QA m c) :=
  (dats m 0 c).arrAt_eq_of_cover 4 (wgtArr (KA m c) (QA m c)) (fun t _ => flushed4_eq m c t) cover4

/-- The output array ends holding the specification's normalised mixture of the launched keys, queries and values. -/
theorem final3 (c : Dev nD) : (dats m 0 c).arrAt 3 cfg0.N = outArr (KA m c) (QA m c) (VA m c) :=
  (dats m 0 c).arrAt_eq_of_cover 3 (outArr (KA m c) (QA m c) (VA m c)) (fun t _ => flushed3_eq m c t) cover3

/-- Every weakly fair execution of the idealized kernel ends with the two results at the specification's functions of
    the launched arrays, and the arguments unchanged. -/
theorem run : θ_run defs (onTc (τ := τ) (main (F := Ideal))) ⟨m, fun _ => 0, ρ⟩ fun r => ∀ c : Dev nD,
      r.2.mem ((c : Thread nD τ).loc main_v2_0) = outArr (KA m c) (QA m c) (VA m c)
      ∧ r.2.mem ((c : Thread nD τ).loc main_v2_1) = wgtArr (KA m c) (QA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.Attn.Kern

end
-- ==== Proof.RefRun.lean ====
/-
  The reference program's @main as ONE straight line of host operations, and its run.

  @main calls @_std, which calls @_var, which calls @_where. A call executes the callee's body on the
  operands, each value of the body in a buffer of its own, so with the three bodies written out at
  their call sites @main is a list of sixty-two operations: twenty-nine of its own (the two reshapes,
  the scores, the softmax over the key axis, the mixture, its reshape to rows, the mean), then @_var's
  twenty (the mean again, the centred squares, their sum, the divisor 64 - 1, the comparison), @_where's
  three (the select), @_std's square root, and nine more (centring, the small constant, the division,
  the reshape back and the transpose).

  Running a straight line from any memory with zero counters terminates with every buffer at the fold
  of the operations' results over the launch contents: that fold is what the later modules read.
-/
import proofs.«143836_j38233798869713_1_alg».proof.Proof.Gen.ReferenceIdeal
import Idealize.ShloMosaic.Lib.StableHlo.Run

noncomputable section

namespace Cert.Attn.Ref

open Cert.ReferenceIdeal Cert.ReferenceIdeal.Gen Idealize.ShloMosaic Idealize.ShloMosaic.TcCoe Idealize.SL.Sem Idealize.ShloMosaic.StableHlo

variable {F : FTy → Type} [FloatOps F]

/-- @main's sixty-two operations in order, the three calls written out over their buffer records. -/
abbrev ops : List (HloOp τ sig (Elt F)) :=
  [
    StableHlo.reshape main_arg0 main_v0 rfl shapeCasts_S16x2048x1x64_S16x2048x64,
    StableHlo.reshape main_arg1 main_v1 rfl shapeCasts_S16x1x2048x64_S16x2048x64,
    StableHlo.binary main_v0 main_v1 main_v2 ((fun l r => Host.dotGeneral dot_S16x2048x64_S16x2048x64_S16x2048x2048_2_2_1_1_0_0 none l r) : (⟨S16x2048x64, .f32⟩ : BufTy).Contents (Elt F) → (⟨S16x2048x64, .f32⟩ : BufTy).Contents (Elt F) → (⟨S16x2048x2048, .f32⟩ : BufTy).Contents (Elt F)),
    StableHlo.nullary main_cst (constant S_ .f32 0x41000000#32),
    StableHlo.unary main_cst main_v3 (broadcastInDim S16x2048x2048 ![] bcast_S_S16x2048x2048 : (⟨S_, .f32⟩ : BufTy).Contents (Elt F) → (⟨S16x2048x2048, .f32⟩ : BufTy).Contents (Elt F)),
    StableHlo.binary main_v2 main_v3 main_v4 (Host.divf : (⟨S16x2048x2048, .f32⟩ : BufTy).Contents (Elt F) → (⟨S16x2048x2048, .f32⟩ : BufTy).Contents (Elt F) → (⟨S16x2048x2048, .f32⟩ : BufTy).Contents (Elt F)),
    StableHlo.nullary main_cst_0 (constant S_ .f32 0xFF800000#32),
    StableHlo.binary main_v4 main_cst_0 main_v5 ((fun x v => Host.reduce FloatOps.maximumf x v reducesTo_S16x2048x2048_S16x2048_d1 h_S_) : (⟨S16x2048x2048, .f32⟩ : BufTy).Contents (Elt F) → (⟨S_, .f32⟩ : BufTy).Contents (Elt F) → (⟨S16x2048, .f32⟩ : BufTy).Contents (Elt F)),
    StableHlo.nullary main_cst_1 (constant S_ .f32 0xFF800000#32),
    StableHlo.unary main_cst_1 main_v6 (broadcastInDim S16x2048 ![] bcast_S_S16x2048 : (⟨S_, .f32⟩ : BufTy).Contents (Elt F) → (⟨S16x2048, .f32⟩ : BufTy).Contents (Elt F)),
    StableHlo.binary main_v6 main_v5 main_v7 (maximumf : (⟨S16x2048, .f32⟩ : BufTy).Contents (Elt F) → (⟨S16x2048, .f32⟩ : BufTy).Contents (Elt F) → (⟨S16x2048, .f32⟩ : BufTy).Contents (Elt F)),
    StableHlo.unary main_v7 main_v8 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v8 main_v9 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    StableHlo.binary main_v4 main_v9 main_v10 (subf : (⟨S16x2048x2048, .f32⟩ : BufTy).Contents (Elt F) → (⟨S16x2048x2048, .f32⟩ : BufTy).Contents (Elt F) → (⟨S16x2048x2048, .f32⟩ : BufTy).Contents (Elt F)),
    StableHlo.unary main_v10 main_v11 (Host.exp : (⟨S16x2048x2048, .f32⟩ : BufTy).Contents (Elt F) → (⟨S16x2048x2048, .f32⟩ : BufTy).Contents (Elt F)),
    StableHlo.nullary main_cst_2 (constant S_ .f32 0x00000000#32),
    StableHlo.binary main_v11 main_cst_2 main_v12 ((fun x v => Host.reduceAdd x v reducesTo_S16x2048x2048_S16x2048_d1 h_S_) : (⟨S16x2048x2048, .f32⟩ : BufTy).Contents (Elt F) → (⟨S_, .f32⟩ : BufTy).Contents (Elt F) → (⟨S16x2048, .f32⟩ : BufTy).Contents (Elt F)),
    StableHlo.unary main_v12 main_v13 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v13 main_v14 (broadcastInDim S16x2048x2048 ![0, 1, 2] bcast_S16x1x2048_S16x2048x2048_0_1_2 : (⟨S16x1x2048, .f32⟩ : BufTy).Contents (Elt F) → (⟨S16x2048x2048, .f32⟩ : BufTy).Contents (Elt F)),
    StableHlo.binary main_v11 main_v14 main_v15 (Host.divf : (⟨S16x2048x2048, .f32⟩ : BufTy).Contents (Elt F) → (⟨S16x2048x2048, .f32⟩ : BufTy).Contents (Elt F) → (⟨S16x2048x2048, .f32⟩ : BufTy).Contents (Elt F)),
    StableHlo.binary main_v15 main_arg2 main_v16 ((fun l r => Host.dotGeneral dot_S16x2048x2048_S16x2048x64_S16x2048x64_1_1_2_2_0_0 none l r) : (⟨S16x2048x2048, .f32⟩ : BufTy).Contents (Elt F) → (⟨S16x2048x64, .f32⟩ : BufTy).Contents (Elt F) → (⟨S16x2048x64, .f32⟩ : BufTy).Contents (Elt F)),
    StableHlo.reshape main_v16 main_v17 rfl shapeCasts_S16x2048x64_S32768x64,
    StableHlo.nullary main_cst_3 (constant S_ .f32 0x00000000#32),
    StableHlo.binary main_v17 main_cst_3 main_v18 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.unary main_v18 main_v19 (broadcastInDim S32768x1 ![0] bcast_S32768_S32768x1_0 : (⟨S32768, .f32⟩ : BufTy).Contents (Elt F) → (⟨S32768x1, .f32⟩ : BufTy).Contents (Elt F)),
    StableHlo.nullary main_cst_4 (constant S_ .f32 0x42800000#32),
    StableHlo.unary main_cst_4 main_v20 (broadcastInDim S32768x1 ![] bcast_S_S32768x1 : (⟨S_, .f32⟩ : BufTy).Contents (Elt F) → (⟨S32768x1, .f32⟩ : BufTy).Contents (Elt F)),
    StableHlo.binary main_v19 main_v20 main_v21 (Host.divf : (⟨S32768x1, .f32⟩ : BufTy).Contents (Elt F) → (⟨S32768x1, .f32⟩ : BufTy).Contents (Elt F) → (⟨S32768x1, .f32⟩ : BufTy).Contents (Elt F)),
    StableHlo.nullary main_c (constantI S_ 32 1#32),
    StableHlo.TRef.nullary main_call0_call0.cst (constant S_ .f32 0x00000000#32),
    StableHlo.TRef.binary (.of main_v17 : StableHlo.TRef sig ⟨S32768x64, .f32⟩) main_call0_call0.cst main_call0_call0.v0 (fun x v => Host.reduceAdd x v reducesTo_S32768x64_S32768_d1 h_S_),
    StableHlo.TRef.unary main_call0_call0.v0 main_call0_call0.v1 (broadcastInDim S32768x1 ![0] bcast_S32768_S32768x1_0),
    StableHlo.TRef.nullary main_call0_call0.cst_0 (constant S_ .f32 0x42800000#32),
    StableHlo.TRef.unary main_call0_call0.cst_0 main_call0_call0.v2 (broadcastInDim S32768x1 ![] bcast_S_S32768x1),
    StableHlo.TRef.binary main_call0_call0.v1 main_call0_call0.v2 main_call0_call0.v3 Host.divf,
    StableHlo.TRef.unary main_call0_call0.v3 main_call0_call0.v4 (broadcastInDim S32768x64 ![0, 1] bcast_S32768x1_S32768x64_0_1),
    StableHlo.TRef.binary (.of main_v17 : StableHlo.TRef sig ⟨S32768x64, .f32⟩) main_call0_call0.v4 main_call0_call0.v5 subf,
    StableHlo.TRef.binary main_call0_call0.v5 main_call0_call0.v5 main_call0_call0.v6 mulf,
    StableHlo.TRef.unary (.of main_c : StableHlo.TRef sig ⟨S_, .i32⟩) main_call0_call0.v7 (sitofp .f32),
    StableHlo.TRef.nullary main_call0_call0.cst_1 (constant S_ .f32 0x42800000#32),
    StableHlo.TRef.binary main_call0_call0.cst_1 main_call0_call0.v7 main_call0_call0.v8 subf,
    StableHlo.TRef.nullary main_call0_call0.cst_2 (constant S_ .f32 0x00000000#32),
    StableHlo.TRef.binary main_call0_call0.v6 main_call0_call0.cst_2 main_call0_call0.v9 (fun x v => Host.reduceAdd x v reducesTo_S32768x64_S32768_d1 h_S_),
    StableHlo.TRef.unary main_call0_call0.v9 main_call0_call0.v10 (broadcastInDim S32768x1 ![0] bcast_S32768_S32768x1_0),
    StableHlo.TRef.unary main_call0_call0.v8 main_call0_call0.v11 (broadcastInDim S32768x1 ![] bcast_S_S32768x1),
    StableHlo.TRef.binary main_call0_call0.v10 main_call0_call0.v11 main_call0_call0.v12 Host.divf,
    StableHlo.TRef.nullary main_call0_call0.cst_3 (constant S_ .f32 0x00000000#32),
    StableHlo.TRef.binary main_call0_call0.v8 main_call0_call0.cst_3 main_call0_call0.v13 (cmpf .ogt),
    StableHlo.TRef.nullary main_call0_call0.cst_4 (constant S_ .f32 0x7FC00000#32),
    StableHlo.TRef.unary main_call0_call0.cst_4 main_call0_call0_call0.v0 id,
    StableHlo.TRef.unary main_call0_call0_call0.v0 main_call0_call0_call0.v1 (broadcastInDim S32768x1 ![] bcast_S_S32768x1),
    StableHlo.TRef.ternary main_call0_call0.v13 main_call0_call0.v12 main_call0_call0_call0.v1 main_call0_call0_call0.v2 (fun p a b => select (broadcastInDim S32768x1 ![] bcast_S_S32768x1 p) a b),
    StableHlo.TRef.unary main_call0_call0_call0.v2 main_call0.v1 Host.sqrt,
    StableHlo.unary main_v21 main_v23 (broadcastInDim S32768x64 ![0, 1] bcast_S32768x1_S32768x64_0_1 : (⟨S32768x1, .f32⟩ : BufTy).Contents (Elt F) → (⟨S32768x64, .f32⟩ : BufTy).Contents (Elt F)),
    StableHlo.binary main_v17 main_v23 main_v24 (subf : (⟨S32768x64, .f32⟩ : BufTy).Contents (Elt F) → (⟨S32768x64, .f32⟩ : BufTy).Contents (Elt F) → (⟨S32768x64, .f32⟩ : BufTy).Contents (Elt F)),
    StableHlo.nullary main_cst_5 (constant S_ .f32 0x322BCC77#32),
    StableHlo.unary main_cst_5 main_v25 (broadcastInDim S32768x1 ![] bcast_S_S32768x1 : (⟨S_, .f32⟩ : BufTy).Contents (Elt F) → (⟨S32768x1, .f32⟩ : BufTy).Contents (Elt F)),
    StableHlo.binary main_v22 main_v25 main_v26 (addf : (⟨S32768x1, .f32⟩ : BufTy).Contents (Elt F) → (⟨S32768x1, .f32⟩ : BufTy).Contents (Elt F) → (⟨S32768x1, .f32⟩ : BufTy).Contents (Elt F)),
    StableHlo.unary main_v26 main_v27 (broadcastInDim S32768x64 ![0, 1] bcast_S32768x1_S32768x64_0_1 : (⟨S32768x1, .f32⟩ : BufTy).Contents (Elt F) → (⟨S32768x64, .f32⟩ : BufTy).Contents (Elt F)),
    StableHlo.binary main_v24 main_v27 main_v28 (Host.divf : (⟨S32768x64, .f32⟩ : BufTy).Contents (Elt F) → (⟨S32768x64, .f32⟩ : BufTy).Contents (Elt F) → (⟨S32768x64, .f32⟩ : BufTy).Contents (Elt F)),
    StableHlo.reshape main_v28 main_v29 rfl shapeCasts_S32768x64_S16x2048x64,
    StableHlo.unary main_v29 main_v30 ((transpose S16x64x2048 [0, 2, 1] · transposes_S16x2048x64_S16x64x2048_0_2_1) : (⟨S16x2048x64, .f32⟩ : BufTy).Contents (Elt F) → (⟨S16x64x2048, .f32⟩ : BufTy).Contents (Elt F)) ]

-- sixty-two binds re-associated: the rewrite under the chain recurses once per statement
set_option maxRecDepth 2048 in
/-- @main is that straight line: with the callees' definitions unfolded at their calls, both sides are one
    chain of steps once sequencing is re-associated. -/
theorem main_eq (c : Dev nD) : main (F := F) c = seq ops := by
  simp only [main, fn_std.body, fn_var.body, fn_where.body, seq, bind_assoc, pure_bind]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨reshape_bufs_sub .., reshape_bufs_sub .., binary_bufs_sub .., nullary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., reshape_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    reshape_bufs_sub .., unary_bufs_sub ..⟩

/-- From any memory with zero counters, every weakly fair execution of @main terminates, and every final
    state has each TensorCore buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Attn.Ref

end
-- ==== Proof.RefStages.lean ====
/-
  The reference's two results as compositions of small named stages of its three arguments.

  Each stage is the text of a few consecutive operations of the straight line, over any float values:
  the scaled scores (the two reshapes, the product contracting the feature axis, the division by the
  word for 8); a column's maximum (the reduce from -inf, then once more the larger of -inf and it);
  the shifted exponentials, a column's sum, the weights (softmax over the key axis); the mixture
  (weights times values contracting the key axis) reshaped to one row per (batch, query row); a row's
  mean; the row's deviation as the callees compute it (the mean again, the squares, their sum over the
  divisor 64 - 1 chosen by a select on "the divisor is above zero", the root); the centred row over the
  deviation plus the small constant; the reshape back and the transpose of the last two axes.

  Reading the fold of the sixty-two operations at a result buffer gives exactly these compositions of
  the launch contents of the argument buffers, and leaves the argument buffers as they were.
-/
import proofs.«143836_j38233798869713_1_alg».proof.Proof.RefRun

noncomputable section

namespace Cert.Attn.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The scaled scores: the keys and queries with their unit axis dropped, multiplied along the
    feature axis, each product divided by the word for 8. -/
def scores (k : FVec F S16x2048x1x64 .f32) (q : FVec F S16x1x2048x64 .f32) : FVec F S16x2048x2048 .f32 :=
  Host.divf
    (Host.dotGeneral dot_S16x2048x64_S16x2048x64_S16x2048x2048_2_2_1_1_0_0 none
      (shapeCast S16x2048x64 k shapeCasts_S16x2048x1x64_S16x2048x64)
      (shapeCast S16x2048x64 q shapeCasts_S16x1x2048x64_S16x2048x64))
    (broadcastInDim S16x2048x2048 ![] bcast_S_S16x2048x2048 (constant S_ .f32 0x41000000#32))

/-- A column's maximum over the key axis from -inf, then the larger of -inf and it. -/
def colMaxes (s : FVec F S16x2048x2048 .f32) : FVec F S16x2048 .f32 :=
  maximumf (broadcastInDim S16x2048 ![] bcast_S_S16x2048 (constant S_ .f32 0xFF800000#32))
    (Host.reduce FloatOps.maximumf s (constant S_ .f32 0xFF800000#32) reducesTo_S16x2048x2048_S16x2048_d1 h_S_)

/-- A per-column value repeated along the key axis: [16, 2048] to [16, 1, 2048] to [16, 2048, 2048]. -/
def alongKeys (c : FVec F S16x2048 .f32) : FVec F S16x2048x2048 .f32 :=
  broadcastInDim S16x2048x2048 ![0, 1, 2] bcast_S16x1x2048_S16x2048x2048_0_1_2
    (broadcastInDim S16x1x2048 ![0, 2] bcast_S16x2048_S16x1x2048_0_2 c)

/-- The exponentials of the scores shifted by their column's maximum. -/
def expos (s : FVec F S16x2048x2048 .f32) : FVec F S16x2048x2048 .f32 :=
  Host.exp (subf s (alongKeys (colMaxes s)))

/-- A column's sum over the key axis, from the zero word. -/
def colSums (e : FVec F S16x2048x2048 .f32) : FVec F S16x2048 .f32 :=
  Host.reduceAdd e (constant S_ .f32 0x00000000#32) reducesTo_S16x2048x2048_S16x2048_d1 h_S_

/-- The weights: each exponential over its column's sum. -/
def weights (e : FVec F S16x2048x2048 .f32) : FVec F S16x2048x2048 .f32 :=
  Host.divf e (alongKeys (colSums e))

/-- The second result as a function of the keys and queries. -/
def wgt (k : FVec F S16x2048x1x64 .f32) (q : FVec F S16x1x2048x64 .f32) : FVec F S16x2048x2048 .f32 :=
  weights (expos (scores k q))

/-- The mixture, one row of 64 features per (batch, query row): weights times values along the key
    axis, reshaped to [32768, 64]. -/
def mixedRows (w : FVec F S16x2048x2048 .f32) (v : FVec F S16x2048x64 .f32) : FVec F S32768x64 .f32 :=
  shapeCast S32768x64
    (Host.dotGeneral dot_S16x2048x2048_S16x2048x64_S16x2048x64_1_1_2_2_0_0 none w v)
    shapeCasts_S16x2048x64_S32768x64

/-- A row's sum from the zero word, kept as a column [32768, 1]. -/
def rowSums (x : FVec F S32768x64 .f32) : FVec F S32768x1 .f32 :=
  broadcastInDim S32768x1 ![0] bcast_S32768_S32768x1_0
    (Host.reduceAdd x (constant S_ .f32 0x00000000#32) reducesTo_S32768x64_S32768_d1 h_S_)

/-- A scalar repeated down a column [32768, 1]. -/
def downRows (c : FVec F S_ .f32) : FVec F S32768x1 .f32 :=
  broadcastInDim S32768x1 ![] bcast_S_S32768x1 c

/-- A column repeated across the 64 features. -/
def acrossFeatures (c : FVec F S32768x1 .f32) : FVec F S32768x64 .f32 :=
  broadcastInDim S32768x64 ![0, 1] bcast_S32768x1_S32768x64_0_1 c

/-- A row's mean: its sum over the word for 64. -/
def rowMeans (x : FVec F S32768x64 .f32) : FVec F S32768x1 .f32 :=
  Host.divf (rowSums x) (downRows (constant S_ .f32 0x42800000#32))

/-- The rows less their means. -/
def centredRows (x : FVec F S32768x64 .f32) : FVec F S32768x64 .f32 :=
  subf x (acrossFeatures (rowMeans x))

/-- The divisor of the unbiased variance: the word for 64 less the integer 1 read as a float. -/
def divisor : FVec F S_ .f32 :=
  subf (constant S_ .f32 0x42800000#32) (sitofp .f32 (constantI S_ 32 1#32))

/-- A row's variance as the callees compute it: the sum of the squared centred features over the
    divisor, chosen by a select on "the divisor is above the zero word" against the NaN word. -/
def rowVars (x : FVec F S32768x64 .f32) : FVec F S32768x1 .f32 :=
  select (broadcastInDim S32768x1 ![] bcast_S_S32768x1 (cmpf .ogt (divisor (F := F)) (constant S_ .f32 0x00000000#32)))
    (Host.divf (rowSums (mulf (centredRows x) (centredRows x))) (downRows divisor))
    (downRows (id (constant S_ .f32 0x7FC00000#32)))

/-- The normalised rows: each centred feature over its row's deviation plus the small constant. -/
def normedRows (x : FVec F S32768x64 .f32) : FVec F S32768x64 .f32 :=
  Host.divf (centredRows x)
    (acrossFeatures (addf (Host.sqrt (rowVars x)) (downRows (constant S_ .f32 0x322BCC77#32))))

/-- The first result as a function of the three arguments: the normalised rows reshaped to
    [16, 2048, 64] and transposed to [16, 64, 2048]. -/
def out (k : FVec F S16x2048x1x64 .f32) (q : FVec F S16x1x2048x64 .f32) (v : FVec F S16x2048x64 .f32) :
    FVec F S16x64x2048 .f32 :=
  transpose S16x64x2048 [0, 2, 1]
    (shapeCast S16x2048x64 (normedRows (mixedRows (wgt k q) v)) shapeCasts_S32768x64_S16x2048x64)
    transposes_S16x2048x64_S16x64x2048_0_2_1

/-! ## The fold of the operations at the result and argument buffers -/

attribute [local irreducible] Host.reduce Host.reduceAdd transpose broadcastInDim shapeCast Host.divf Host.exp Host.sqrt in
set_option maxRecDepth 8192 in
/-- The fold at the weights' buffer is the weights of the launch contents of the keys and queries. -/
theorem after_v15 (V : Valuation τ sig (Elt F)) :
    after ops V (main_v15 : DevRef τ sig) = wgt (V (main_arg0 : DevRef τ sig)) (V (main_arg1 : DevRef τ sig)) := by
  after_results_simp
  rfl

attribute [local irreducible] Host.reduce Host.reduceAdd transpose broadcastInDim shapeCast Host.divf Host.exp Host.sqrt in
set_option maxRecDepth 8192 in
/-- The fold at the first result's buffer is the normalised mixture of the launch contents of the three
    arguments, laid out (batch, feature, query row). -/
theorem after_v30 (V : Valuation τ sig (Elt F)) :
    after ops V (main_v30 : DevRef τ sig)
      = out (V (main_arg0 : DevRef τ sig)) (V (main_arg1 : DevRef τ sig)) (V (main_arg2 : DevRef τ sig)) := by
  after_results_simp
  rfl

/-- No operation writes the keys' buffer. -/
theorem after_arg0 (V : Valuation τ sig (Elt F)) :
    after ops V (main_arg0 : DevRef τ sig) = V (main_arg0 : DevRef τ sig) := by
  after_results_simp

/-- No operation writes the queries' buffer. -/
theorem after_arg1 (V : Valuation τ sig (Elt F)) :
    after ops V (main_arg1 : DevRef τ sig) = V (main_arg1 : DevRef τ sig) := by
  after_results_simp

/-- No operation writes the values' buffer. -/
theorem after_arg2 (V : Valuation τ sig (Elt F)) :
    after ops V (main_arg2 : DevRef τ sig) = V (main_arg2 : DevRef τ sig) := by
  after_results_simp

end Cert.Attn.Ref

end
-- ==== Proof.Consts.lean ====
/-
  The float words the two programs spell, as the extended reals they denote: 8, 1/8, 64, 63, 0 and
  -inf are exact values, so dividing by the word for 8 is multiplying by the word for 1/8, and
  64 less the integer 1 is the word for 63.
-/
import Idealize.ShloMosaic.PureOps.Ideal

noncomputable section

namespace Cert.Attn.Consts

open Idealize.ShloMosaic

/-- The zero word denotes 0. -/
theorem ofBits_zero : Ideal.ofBits .f32 0x00000000#32 = 0 := by
  simp [Ideal.ofBits, Ideal.ieee]

/-- The word 0x41000000 denotes 8. -/
theorem ofBits_8 : Ideal.ofBits .f32 0x41000000#32 = ((8 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- The word 0x42800000 denotes 64. -/
theorem ofBits_64 : Ideal.ofBits .f32 0x42800000#32 = ((64 : ℝ) : EReal) := by
  simp [Ideal.ofBits, Ideal.ieee, -EReal.coe_mul]; norm_num

/-- The word 0x427C0000 denotes 63. -/
theorem ofBits_63 : Ideal.ofBits .f32 0x427C0000#32 = ((63 : ℝ) : EReal) := by
  simp [Ideal.ofBits, Ideal.ieee, -EReal.coe_mul]; norm_num

/-- The word 0xFF800000 denotes -inf, the bottom of the extended reals. -/
theorem ofBits_neg_inf : Ideal.ofBits .f32 0xFF800000#32 = ⊥ := by
  simp [Ideal.ofBits, Ideal.ieee]

/-- Dividing by the word for 8 is multiplying by the word for 1/8, on every extended real. -/
theorem div_8_eq_mul_eighth (x : EReal) :
    Ideal.div x (Ideal.ofBits .f32 0x41000000#32) = x * Ideal.ofBits .f32 0x3E000000#32 := by
  rw [ofBits_8, ofBits_eighth, Ideal.div_coe (by norm_num : (8 : ℝ) ≠ 0)]

/-- 64 less the integer 1 (read as a real) is the word for 63. -/
theorem sixtyfour_sub_one :
    Ideal.ofBits .f32 0x42800000#32 - (((1#32 : BitVec 32).toInt : ℝ) : EReal) = Ideal.ofBits .f32 0x427C0000#32 := by
  rw [ofBits_64, ofBits_63]
  have h : ((1#32 : BitVec 32).toInt : ℝ) = 1 := by norm_num [BitVec.toInt]
  rw [h, ← EReal.coe_sub]; norm_num

end Cert.Attn.Consts

end
-- ==== Proof.RefValue.lean ====
/-
  The reference's stages read at an index, at the extended reals, are the functions of the specification.

  Every stage is read one element at a time: a pointwise operation reads its operands at the same index;
  a broadcast reads its operand at the coordinates it keeps; a reshape reads the element with the same
  row-major position (row b * 2048 + n of the [32768, 64] form is query row n of batch b); a product
  contracting one axis is the sum over that axis; a reduce with an add body is the initial value, zero,
  plus the sum; a reduce with a maximum body is the fold of max from the initial value.
  The spellings that differ from the specification's close as follows: dividing by the word for 8 is
  multiplying by the word for 1/8; the larger of -inf and a maximum is that maximum; the mixture's
  products are written weight times value; the divisor 64 - 1 is the word for 63, it is above zero, so
  the select takes the quotient and never the NaN word; the mean inside the variance is the mean again.
-/
import proofs.«143836_j38233798869713_1_alg».proof.Proof.RefStages
import proofs.«143836_j38233798869713_1_alg».proof.Proof.Spec
import proofs.«143836_j38233798869713_1_alg».proof.Proof.Consts
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.Attn.Ref

open Cert.ReferenceIdeal Cert.ReferenceIdeal.Gen Idealize.ShloMosaic Idealize.ShloMosaic.ValueIdx

/-! ## The operations at an index -/

section Generic
variable {s : Shape}

/-- The host's division at an index is the extended reals' division of the operands there. -/
theorem hdivf_apply (x y : FVec Ideal s .f32) (i : s.Idx) : Host.divf x y i = Ideal.div (x i) (y i) := rfl
/-- The host's exponential at an index. -/
theorem hexp_apply (x : FVec Ideal s .f32) (i : s.Idx) : Host.exp x i = Ideal.exp (x i) := rfl
/-- The host's square root at an index. -/
theorem hsqrt_apply (x : FVec Ideal s .f32) (i : s.Idx) : Host.sqrt x i = Ideal.sqrt (x i) := rfl

/-- A scalar broadcast to any shape reads the scalar everywhere. -/
theorem bcast0_apply {α : Type} {t : Shape} (h : S_.BroadcastsInDim t (![] : Fin 0 → Fin t.rank)) (c : S_.Idx → α)
    (j : t.Idx) : broadcastInDim t ![] h c j = c ix0 :=
  broadcastInDim_apply _ h c j ix0 (fun a => a.elim0)

end Generic

/-- Query row n of batch b as a row of the [32768, 64] form. -/
def row (b : Fin 16) (n : Fin 2048) : Fin 32768 := ⟨b.val * 2048 + n.val, by have := b.isLt; have := n.isLt; omega⟩

/-- The shape fact the key-axis reductions' index insertion is defined from. -/
theorem red1 : S16x2048x2048.Reduces [1] S16x2048 := by decide
/-- The shape fact the feature-axis reductions' index insertion is defined from. -/
theorem red2 : S32768x64.Reduces [1] S32768 := by decide

/-- The first product, contracting the feature axis: at (b, a, n) the sum over the 64 features of
    key row a times query row n. -/
theorem dot1_apply (K Q : FVec Ideal S16x2048x64 .f32) (b : Fin 16) (a n : Fin 2048) :
    Host.dotGeneral dot_S16x2048x64_S16x2048x64_S16x2048x2048_2_2_1_1_0_0 none K Q (ix3 b a n) = ∑ i : Fin 64, K (ix3 b a i) * Q (ix3 b n i) := by
  refine (Ideal.dotGeneral_apply dot_S16x2048x64_S16x2048x64_S16x2048x2048_2_2_1_1_0_0 none .single K Q (ix3 b a n)).trans ?_
  refine (Equiv.sum_comp (contrEquiv1 dot_S16x2048x64_S16x2048x64_S16x2048x2048_2_2_1_1_0_0 64 rfl rfl).symm _).symm.trans ?_
  refine Finset.sum_congr rfl fun i _ => ?_
  have hl : (dot_S16x2048x64_S16x2048x64_S16x2048x2048_2_2_1_1_0_0).lhsIdx (ix3 b a n) ((contrEquiv1 dot_S16x2048x64_S16x2048x64_S16x2048x2048_2_2_1_1_0_0 64 rfl rfl).symm i) = ix3 b a i :=
    funext fun c => match c with | ⟨0, _⟩ => Fin.ext rfl | ⟨1, _⟩ => Fin.ext rfl | ⟨2, _⟩ => Fin.ext rfl
  have hr : (dot_S16x2048x64_S16x2048x64_S16x2048x2048_2_2_1_1_0_0).rhsIdx (ix3 b a n) ((contrEquiv1 dot_S16x2048x64_S16x2048x64_S16x2048x2048_2_2_1_1_0_0 64 rfl rfl).symm i) = ix3 b n i :=
    funext fun c => match c with | ⟨0, _⟩ => Fin.ext rfl | ⟨1, _⟩ => Fin.ext rfl | ⟨2, _⟩ => Fin.ext rfl
  rw [hl, hr]

/-- The second product, contracting the key axis: at (b, n, f) the sum over the 2048 key rows of
    the weight of key row a for query row n times feature f of value row a. -/
theorem dot2_apply (w : FVec Ideal S16x2048x2048 .f32) (v : FVec Ideal S16x2048x64 .f32) (b : Fin 16) (n : Fin 2048) (f : Fin 64) :
    Host.dotGeneral dot_S16x2048x2048_S16x2048x64_S16x2048x64_1_1_2_2_0_0 none w v (ix3 b n f) = ∑ a : Fin 2048, w (ix3 b a n) * v (ix3 b a f) := by
  refine (Ideal.dotGeneral_apply dot_S16x2048x2048_S16x2048x64_S16x2048x64_1_1_2_2_0_0 none .single w v (ix3 b n f)).trans ?_
  refine (Equiv.sum_comp (contrEquiv1 dot_S16x2048x2048_S16x2048x64_S16x2048x64_1_1_2_2_0_0 2048 rfl rfl).symm _).symm.trans ?_
  refine Finset.sum_congr rfl fun a _ => ?_
  have hl : (dot_S16x2048x2048_S16x2048x64_S16x2048x64_1_1_2_2_0_0).lhsIdx (ix3 b n f) ((contrEquiv1 dot_S16x2048x2048_S16x2048x64_S16x2048x64_1_1_2_2_0_0 2048 rfl rfl).symm a) = ix3 b a n :=
    funext fun c => match c with | ⟨0, _⟩ => Fin.ext rfl | ⟨1, _⟩ => Fin.ext rfl | ⟨2, _⟩ => Fin.ext rfl
  have hr : (dot_S16x2048x2048_S16x2048x64_S16x2048x64_1_1_2_2_0_0).rhsIdx (ix3 b n f) ((contrEquiv1 dot_S16x2048x2048_S16x2048x64_S16x2048x64_1_1_2_2_0_0 2048 rfl rfl).symm a) = ix3 b a f :=
    funext fun c => match c with | ⟨0, _⟩ => Fin.ext rfl | ⟨1, _⟩ => Fin.ext rfl | ⟨2, _⟩ => Fin.ext rfl
  rw [hl, hr]

/-- A maximum-reduce over the key axis: at (b, n) the fold of max from the initial value over the key rows. -/
theorem reduceMax_apply (x : FVec Ideal S16x2048x2048 .f32) (init : FVec Ideal S_ .f32) (b : Fin 16) (n : Fin 2048) :
    Host.reduce FloatOps.maximumf x init reducesTo_S16x2048x2048_S16x2048_d1 h_S_ (ix2 b n)
      = (Finset.univ : Finset (Fin 2048)).fold max (init ix0) (fun a => x (ix3 b a n)) := by
  refine (Host.reduce_eq_fold_single (FloatOps.maximumf (F := Ideal) (φ := .f32)) x init
    reducesTo_S16x2048x2048_S16x2048_d1 red1 h_S_ (ix2 b n)).trans ?_
  have hf : (x ∘ red1.lift (ix2 b n)) = fun a : Fin 2048 => x (ix3 b a n) :=
    funext fun a => congrArg x (funext fun c => match c with | ⟨0, _⟩ => Fin.ext rfl | ⟨1, _⟩ => Fin.ext rfl | ⟨2, _⟩ => Fin.ext rfl)
  have hi : init (Shape.Idx.first h_S_) = init ix0 := congrArg init (eq_ix0 _)
  rw [hf, hi]
  rfl

/-- An add-reduce over the key axis from the zero word: at (b, n) the sum over the key rows. -/
theorem reduceAdd1_apply (x : FVec Ideal S16x2048x2048 .f32) (b : Fin 16) (n : Fin 2048) :
    Host.reduceAdd x (constant S_ .f32 0x00000000#32) reducesTo_S16x2048x2048_S16x2048_d1 h_S_ (ix2 b n)
      = ∑ a : Fin 2048, x (ix3 b a n) := by
  refine (Ideal.hostReduceAdd_single reducesTo_S16x2048x2048_S16x2048_d1 red1 x (Ideal.ofBits .f32 0x00000000#32) (ix2 b n)).trans ?_
  rw [Consts.ofBits_zero, zero_add]
  exact Finset.sum_congr rfl fun a _ => congrArg x
    (funext fun c => match c with | ⟨0, _⟩ => Fin.ext rfl | ⟨1, _⟩ => Fin.ext rfl | ⟨2, _⟩ => Fin.ext rfl)

/-- An add-reduce over the feature axis from the zero word: at row r the sum over the 64 features. -/
theorem reduceAdd2_apply (x : FVec Ideal S32768x64 .f32) (r : Fin 32768) :
    Host.reduceAdd x (constant S_ .f32 0x00000000#32) reducesTo_S32768x64_S32768_d1 h_S_ (ix1 r)
      = ∑ f : Fin 64, x (ix2 r f) := by
  refine (Ideal.hostReduceAdd_single reducesTo_S32768x64_S32768_d1 red2 x (Ideal.ofBits .f32 0x00000000#32) (ix1 r)).trans ?_
  rw [Consts.ofBits_zero, zero_add]
  exact Finset.sum_congr rfl fun f _ => congrArg x
    (funext fun c => match c with | ⟨0, _⟩ => Fin.ext rfl | ⟨1, _⟩ => Fin.ext rfl)

/-! ## The stages at an index -/

section Stages
variable (k : FVec Ideal S16x2048x1x64 .f32) (q : FVec Ideal S16x1x2048x64 .f32) (v : FVec Ideal S16x2048x64 .f32)

/-- The scaled score at (b, a, n) is the specification's: dividing by 8 is multiplying by 1/8. -/
theorem scores_apply (b : Fin 16) (a n : Fin 2048) :
    scores (F := Ideal) k q (ix3 b a n) = score (flatK k) (flatQ q) b a n := by
  unfold scores
  rw [hdivf_apply, bcast0_apply, constant_apply, Consts.div_8_eq_mul_eighth, dot1_apply]
  rfl

/-- A per-column value repeated along the key axis reads the column's value. -/
theorem alongKeys_apply (c : FVec Ideal S16x2048 .f32) (b : Fin 16) (a n : Fin 2048) :
    alongKeys c (ix3 b a n) = c (ix2 b n) := by
  unfold alongKeys
  refine (broadcastInDim_apply _ _ _ (ix3 b a n) (ix3 b (0 : Fin 1) n)
    (fun c => match c with | ⟨0, _⟩ => rfl | ⟨1, _⟩ => rfl | ⟨2, _⟩ => rfl)).trans ?_
  exact broadcastInDim_apply _ _ c (ix3 b (0 : Fin 1) n) (ix2 b n)
    (fun c => match c with | ⟨0, _⟩ => rfl | ⟨1, _⟩ => rfl)

/-- A column's maximum: the larger of -inf and the fold of max from -inf is that fold. -/
theorem colMaxes_apply (s : FVec Ideal S16x2048x2048 .f32) (b : Fin 16) (n : Fin 2048) :
    colMaxes s (ix2 b n)
      = (Finset.univ : Finset (Fin 2048)).fold max (Ideal.ofBits .f32 0xFF800000#32) (fun a => s (ix3 b a n)) := by
  unfold colMaxes
  rw [maximumf_apply, bcast0_apply, constant_apply, reduceMax_apply, constant_apply, Consts.ofBits_neg_inf]
  exact max_bot_left _

/-- A shifted exponential at (b, a, n). -/
theorem expos_apply (s : FVec Ideal S16x2048x2048 .f32) (b : Fin 16) (a n : Fin 2048) :
    expos s (ix3 b a n) = Ideal.exp (s (ix3 b a n) - colMaxes s (ix2 b n)) := by
  unfold expos
  rw [hexp_apply, subf_apply, alongKeys_apply]

/-- A column's sum at (b, n). -/
theorem colSums_apply (e : FVec Ideal S16x2048x2048 .f32) (b : Fin 16) (n : Fin 2048) :
    colSums e (ix2 b n) = ∑ a : Fin 2048, e (ix3 b a n) := by
  unfold colSums
  exact reduceAdd1_apply e b n

/-- A weight at (b, a, n). -/
theorem weights_apply (e : FVec Ideal S16x2048x2048 .f32) (b : Fin 16) (a n : Fin 2048) :
    weights e (ix3 b a n) = Ideal.div (e (ix3 b a n)) (colSums e (ix2 b n)) := by
  unfold weights
  rw [hdivf_apply, alongKeys_apply]

/-- The column maximum of the scores is the specification's. -/
theorem colMaxes_scores (b : Fin 16) (n : Fin 2048) :
    colMaxes (scores (F := Ideal) k q) (ix2 b n) = colMax (flatK k) (flatQ q) b n := by
  rw [colMaxes_apply]
  unfold colMax
  simp only [scores_apply]

/-- The shifted exponential of the scores is the specification's. -/
theorem expos_scores (b : Fin 16) (a n : Fin 2048) :
    expos (scores (F := Ideal) k q) (ix3 b a n) = expo (flatK k) (flatQ q) b a n := by
  rw [expos_apply, scores_apply, colMaxes_scores]
  rfl

/-- The column sum of the exponentials is the specification's. -/
theorem colSums_expos (b : Fin 16) (n : Fin 2048) :
    colSums (expos (scores (F := Ideal) k q)) (ix2 b n) = colSum (flatK k) (flatQ q) b n := by
  rw [colSums_apply]
  unfold colSum
  simp only [expos_scores]

/-- The reference's weight at (b, a, n) is the specification's. -/
theorem wgt_apply (b : Fin 16) (a n : Fin 2048) :
    wgt (F := Ideal) k q (ix3 b a n) = weight (flatK k) (flatQ q) b a n := by
  unfold wgt
  rw [weights_apply, expos_scores, colSums_expos]
  rfl

/-- The second result is the specification's weights array. -/
theorem wgt_eq : wgt (F := Ideal) k q = wgtArr (flatK k) (flatQ q) := by
  funext j
  obtain ⟨b, a, n, rfl⟩ : ∃ (b : Fin 16) (a n : Fin 2048), j = ix3 b a n := ⟨j 0, j 1, j 2, eq_ix3 j⟩
  exact wgt_apply k q b a n

end Stages

/-! ## The rows: mixture, mean, deviation, normalisation -/

section Rows
variable (x : FVec Ideal S32768x64 .f32)

/-- A row's sum, kept as a column, reads the sum over the 64 features. -/
theorem rowSums_apply (r : Fin 32768) (u : Fin 1) : rowSums x (ix2 r u) = ∑ f : Fin 64, x (ix2 r f) := by
  unfold rowSums
  refine (broadcastInDim_apply _ _ _ (ix2 r u) (ix1 r) (fun c => match c with | ⟨0, _⟩ => rfl)).trans ?_
  exact reduceAdd2_apply x r

/-- A scalar repeated down a column reads the scalar. -/
theorem downRows_apply (c : FVec Ideal S_ .f32) (r : Fin 32768) (u : Fin 1) : downRows c (ix2 r u) = c ix0 := by
  unfold downRows
  exact bcast0_apply _ c _

/-- A column repeated across the features reads the column at its row. -/
theorem acrossFeatures_apply (c : FVec Ideal S32768x1 .f32) (r : Fin 32768) (f : Fin 64) :
    acrossFeatures c (ix2 r f) = c (ix2 r (0 : Fin 1)) := by
  unfold acrossFeatures
  exact broadcastInDim_apply _ _ c (ix2 r f) (ix2 r (0 : Fin 1)) (fun c => match c with | ⟨0, _⟩ => rfl | ⟨1, _⟩ => rfl)

/-- A row's mean: its sum over the word for 64. -/
theorem rowMeans_apply (r : Fin 32768) (u : Fin 1) :
    rowMeans x (ix2 r u) = Ideal.div (∑ f : Fin 64, x (ix2 r f)) (Ideal.ofBits .f32 0x42800000#32) := by
  unfold rowMeans
  rw [hdivf_apply, rowSums_apply, downRows_apply, constant_apply]

/-- A centred feature: the feature less its row's mean. -/
theorem centredRows_apply (r : Fin 32768) (f : Fin 64) :
    centredRows x (ix2 r f) = x (ix2 r f) - Ideal.div (∑ f' : Fin 64, x (ix2 r f')) (Ideal.ofBits .f32 0x42800000#32) := by
  unfold centredRows
  rw [subf_apply, acrossFeatures_apply, rowMeans_apply]

/-- The divisor 64 - 1 is the word for 63. -/
theorem divisor_apply : divisor (F := Ideal) ix0 = Ideal.ofBits .f32 0x427C0000#32 :=
  Consts.sixtyfour_sub_one

/-- The divisor is above the zero word: the comparison's bit is 1. -/
theorem divisor_pos_bit : cmpf .ogt (divisor (F := Ideal)) (constant S_ .f32 0x00000000#32) ix0 = 1#1 := by
  rw [cmpf_apply, divisor_apply, constant_apply, Consts.ofBits_zero, Consts.ofBits_63]
  have h : (0 : EReal) < ((63 : ℝ) : EReal) := by exact_mod_cast (by norm_num : (0 : ℝ) < 63)
  show Ideal.cmp .ogt ((63 : ℝ) : EReal) 0 = 1#1
  simp [Ideal.cmp, h]

/-- A row's variance: the select takes the quotient, the sum of the squared centred features over 63. -/
theorem rowVars_apply (r : Fin 32768) (u : Fin 1) :
    rowVars x (ix2 r u)
      = Ideal.div (∑ f : Fin 64, centredRows x (ix2 r f) * centredRows x (ix2 r f)) (Ideal.ofBits .f32 0x427C0000#32) := by
  unfold rowVars
  rw [select_apply, bcast0_apply, divisor_pos_bit, select_one, hdivf_apply, rowSums_apply, downRows_apply, divisor_apply]
  simp only [mulf_apply]

/-- A normalised feature: the centred feature over the root of the row's variance plus the small constant. -/
theorem normedRows_apply (r : Fin 32768) (f : Fin 64) :
    normedRows x (ix2 r f)
      = Ideal.div (centredRows x (ix2 r f))
          (Ideal.sqrt (rowVars x (ix2 r (0 : Fin 1))) + Ideal.ofBits .f32 0x322BCC77#32) := by
  unfold normedRows
  rw [hdivf_apply, acrossFeatures_apply, addf_apply, hsqrt_apply, downRows_apply, constant_apply]

end Rows

section Out
variable (k : FVec Ideal S16x2048x1x64 .f32) (q : FVec Ideal S16x1x2048x64 .f32) (v : FVec Ideal S16x2048x64 .f32)

/-- The mixture at row b * 2048 + n, feature f: weight times value summed over the key rows,
    which is the specification's value times weight. -/
theorem mixedRows_apply (b : Fin 16) (n : Fin 2048) (f : Fin 64) :
    mixedRows (wgt (F := Ideal) k q) v (ix2 (row b n) f) = mixed (flatK k) (flatQ q) v b f n := by
  unfold mixedRows
  refine (shapeCast_apply _ _ (ix2 (row b n) f) (ix3 b n f) (by
    rw [Shape.rowMajor_val_three, Shape.rowMajor_val_two]; rfl)).trans ?_
  rw [dot2_apply]
  unfold mixed
  exact Finset.sum_congr rfl fun a _ => by rw [wgt_apply, mul_comm]

/-- The centred mixture is the specification's. -/
theorem centredRows_mixed (b : Fin 16) (n : Fin 2048) (f : Fin 64) :
    centredRows (mixedRows (wgt (F := Ideal) k q) v) (ix2 (row b n) f) = centred (flatK k) (flatQ q) v b f n := by
  rw [centredRows_apply]
  unfold centred mean
  simp only [mixedRows_apply]

/-- The row's variance is the specification's sum of squares over 63. -/
theorem rowVars_mixed (b : Fin 16) (n : Fin 2048) (u : Fin 1) :
    rowVars (mixedRows (wgt (F := Ideal) k q) v) (ix2 (row b n) u)
      = Ideal.div (sumSq (flatK k) (flatQ q) v b n) (Ideal.ofBits .f32 0x427C0000#32) := by
  rw [rowVars_apply]
  unfold sumSq
  simp only [centredRows_mixed]

/-- The normalised mixture is the specification's. -/
theorem normedRows_mixed (b : Fin 16) (n : Fin 2048) (f : Fin 64) :
    normedRows (mixedRows (wgt (F := Ideal) k q) v) (ix2 (row b n) f) = normed (flatK k) (flatQ q) v b f n := by
  rw [normedRows_apply, centredRows_mixed, rowVars_mixed]
  rfl

/-- The first result at (b, f, n): the transpose reads (b, n, f), the reshape reads row b * 2048 + n. -/
theorem out_apply (b : Fin 16) (f : Fin 64) (n : Fin 2048) :
    out (F := Ideal) k q v (ix3 b f n) = normed (flatK k) (flatQ q) v b f n := by
  unfold out
  refine (transpose_ix3_021_apply _ _ b f n).trans ?_
  refine (shapeCast_apply _ _ (ix3 b n f) (ix2 (row b n) f) (by
    rw [Shape.rowMajor_val_three, Shape.rowMajor_val_two]; rfl)).trans ?_
  exact normedRows_mixed k q v b n f

/-- The first result is the specification's output array. -/
theorem out_eq : out (F := Ideal) k q v = outArr (flatK k) (flatQ q) v := by
  funext j
  obtain ⟨b, f, n, rfl⟩ : ∃ (b : Fin 16) (f : Fin 64) (n : Fin 2048), j = ix3 b f n := ⟨j 0, j 1, j 2, eq_ix3 j⟩
  exact out_apply k q v b f n

end Out

end Cert.Attn.Ref

end
-- ==== Proof.Ref.lean ====
/-
  The reference's run, read at the extended reals: from any memory with zero counters every weakly
  fair execution of @main terminates; the first result's buffer then holds the specification's
  normalised mixture of the three arguments (the keys and queries with their unit axis dropped),
  laid out (batch, feature, query row), the second result's buffer the specification's softmax
  weights, laid out (batch, key row, query row), and the three argument buffers are unchanged.

  The run gives every buffer as the fold of the sixty-two operations over the launch contents; the
  fold at the two result buffers is the composition of the stages; the stages, element by element,
  are the specification's functions.
-/
import proofs.«143836_j38233798869713_1_alg».proof.Proof.RefValue

noncomputable section

namespace Cert.Attn.Ref

open Cert.ReferenceIdeal Cert.ReferenceIdeal.Gen Idealize.ShloMosaic Idealize.ShloMosaic.TcCoe Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = Cert.Attn.outArr (Cert.Attn.flatK (m ((c.tc : Thread nD τ).loc main_arg0))) (Cert.Attn.flatQ (m ((c.tc : Thread nD τ).loc main_arg1))) (m ((c.tc : Thread nD τ).loc main_arg2))
      ∧ r.2.mem ((c.tc : Thread nD τ).loc main_v15) = Cert.Attn.wgtArr (Cert.Attn.flatK (m ((c.tc : Thread nD τ).loc main_arg0))) (Cert.Attn.flatQ (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c =>
      ⟨(h c main_v30).trans ((after_v30 _).trans (out_eq _ _ _)),
       (h c main_v15).trans ((after_v15 _).trans (wgt_eq _ _)),
       (h c main_arg0).trans (after_arg0 _),
       (h c main_arg1).trans (after_arg1 _),
       (h c main_arg2).trans (after_arg2 _)⟩)
    (run_main m ρ)

end Cert.Attn.Ref

end
-- ==== Proof.lean ====
/-
  The certificate of a softmax-attention kernel against its jnp reference, on the extended reals.

  Both programs take keys [16, 2048, 1, 64], queries [16, 1, 2048, 64] and values [16, 2048, 64] and return the softmax
  weights [16, 2048, 2048] (softmax over the key axis of the scaled scores) and the values mixed by the weights,
  normalised along the 64 features by the mean and the unbiased standard deviation, laid out [16, 64, 2048]. The
  kernel works block by block (one batch and 512 query rows per grid point) and multiplies the scores by 1/8; the
  reference works on whole arrays, divides by 8, and takes the variance through functions it calls, which subtract the
  integer 1 from 64. One function of the launched arrays describes both (Proof/Spec.lean): the kernel's run ends at it
  (Proof/KernBlocks.lean, over the payload readings of Proof/KernPay.lean) and so does the reference's (Proof/Ref.lean).
  No step uses that the inputs are finite: the laws used are commutativity of the product, re-indexing of finite sums,
  x / 8 = x * (1/8) on every extended real, max with -inf, and 64 - 1 = 63.

  The three frames are the generated frame certificates of the two kernel programs and the reference's run with its
  results dropped; the idealization rewrote no operation, so its conjunct is trivial.
-/
import proofs.«143836_j38233798869713_1_alg».proof.Defs
import proofs.«143836_j38233798869713_1_alg».proof.Proof.Gen.Kernel
import proofs.«143836_j38233798869713_1_alg».proof.Proof.Gen.Kernel.Skeleton
import proofs.«143836_j38233798869713_1_alg».proof.Proof.Gen.Kernel.Launch
import proofs.«143836_j38233798869713_1_alg».proof.Proof.Gen.Kernel.Points
import proofs.«143836_j38233798869713_1_alg».proof.Proof.Gen.Kernel.Frame
import proofs.«143836_j38233798869713_1_alg».proof.Proof.Gen.KernelIdeal
import proofs.«143836_j38233798869713_1_alg».proof.Proof.Gen.KernelIdeal.Skeleton
import proofs.«143836_j38233798869713_1_alg».proof.Proof.Gen.KernelIdeal.Launch
import proofs.«143836_j38233798869713_1_alg».proof.Proof.Gen.KernelIdeal.Points
import proofs.«143836_j38233798869713_1_alg».proof.Proof.Gen.KernelIdeal.Frame
import proofs.«143836_j38233798869713_1_alg».proof.Proof.Gen.KernelIdeal.Value
import proofs.«143836_j38233798869713_1_alg».proof.Proof.Gen.ReferenceIdeal
import proofs.«143836_j38233798869713_1_alg».proof.Proof.Gen.Pre_finite_inputs
import proofs.«143836_j38233798869713_1_alg».proof.Proof.KernBlocks
import proofs.«143836_j38233798869713_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the results dropped. -/
theorem frame_ri : Cert.frame_ReferenceIdeal := fun m ρ _ =>
  (θ_run Cert.ReferenceIdeal.defs _ _).mono (fun _ h c => (h c).2.2) (Cert.Attn.Ref.run m ρ)

/-- From memories that agree on the three arguments both idealized programs end with the same two results: the
    specification's normalised mixture and softmax weights of the launched arrays. -/
theorem algebraic : Cert.algebraic_KernelIdeal_ReferenceIdeal := by
  intro m ρ m' ρ' _ hagree
  refine ⟨fun c => Cert.Attn.outArr (Cert.Attn.Kern.KA m c) (Cert.Attn.Kern.QA m c) (Cert.Attn.Kern.VA m c),
    fun c => Cert.Attn.wgtArr (Cert.Attn.Kern.KA m c) (Cert.Attn.Kern.QA m c), Cert.Attn.Kern.run m ρ, ?_⟩
  refine (θ_run Cert.ReferenceIdeal.defs _ _).mono
    (fun _ h c => ⟨(h c).1.trans ?_, (h c).2.1.trans ?_, (h c).2.2⟩) (Cert.Attn.Ref.run m' ρ')
  · rw [(hagree c).1, (hagree c).2.1, (hagree c).2.2]
  · rw [(hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
